-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S21x1024 : Shape := ⟨2, ![21, 1024]⟩
abbrev S21 : Shape := ⟨1, ![21]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S21x1024 : S_.BroadcastsInDim S21x1024 (![] : Fin 0 → Fin S21x1024.rank)
  reducesTo_S21x1024_S_d0_1 : S21x1024.ReducesTo [0, 1] S_
  bcast_S_S21 : S_.BroadcastsInDim S21 (![] : Fin 0 → Fin S21.rank)
  reducesTo_S21_S_d0 : S21.ReducesTo [0] S_

variable [Facts]

def fn {F : FTy → Type} [FloatOps F] (main_arg0 : FVec F S20000x1024 .f32) (main_arg1 : FVec F S21x1024 .f32) (main_arg2 : FVec F S21 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S21x1024 .f32 := Host.absf main_arg1
  let main_cst_0 : FVec F S_ .f32 := constant S_ .f32 0x7F800000#32
  let main_v5 : FVec F S21x1024 .f32 := broadcastInDim S21x1024 ![] bcast_S_S21x1024 main_cst_0
  let main_v6 : IVec S21x1024 1 := cmpf .olt main_v4 main_v5
  let main_c_1 : IVec S_ 1 := constantI S_ 1 1#1
  let main_v7 : IVec S_ 1 := (fun x v => Host.reduce IntOp.andi x v reducesTo_S21x1024_S_d0_1 h_S_) main_v6 main_c_1
  let main_v8 : IVec S_ 1 := andi main_v3 main_v7
  let main_v9 : FVec F S21 .f32 := Host.absf main_arg2
  let main_cst_2 : FVec F S_ .f32 := constant S_ .f32 0x7F800000#32
  let main_v10 : FVec F S21 .f32 := broadcastInDim S21 ![] bcast_S_S21 main_cst_2
  let main_v11 : IVec S21 1 := cmpf .olt main_v9 main_v10
  let main_c_3 : IVec S_ 1 := constantI S_ 1 1#1
  let main_v12 : IVec S_ 1 := (fun x v => Host.reduce IntOp.andi x v reducesTo_S21_S_d0 h_S_) main_v11 main_c_3
  let main_v13 : IVec S_ 1 := andi main_v8 main_v12
  main_v13
-- ==== Kernel.lean ====
abbrev S20000x1024 : Shape := ⟨2, ![20000, 1024]⟩
abbrev S21x1024 : Shape := ⟨2, ![21, 1024]⟩
abbrev S21 : Shape := ⟨1, ![21]⟩
abbrev S1024x21 : Shape := ⟨2, ![1024, 21]⟩
abbrev S1x21 : Shape := ⟨2, ![1, 21]⟩
abbrev S4x5000x21 : Shape := ⟨3, ![4, 5000, 21]⟩
abbrev S200x1024 : Shape := ⟨2, ![200, 1024]⟩
abbrev S4x200x21 : Shape := ⟨3, ![4, 200, 21]⟩
abbrev S200x21 : Shape := ⟨2, ![200, 21]⟩
abbrev S1x200x21 : Shape := ⟨3, ![1, 200, 21]⟩
abbrev S20000x21 : Shape := ⟨2, ![20000, 21]⟩

abbrev nBuf : Space → Nat
  | .hbm => 7
  | .vmem => 12
  | .smem => 0
  | _ => 0

abbrev bufTy : (tb : Table) → Fin (tcTables nBuf tb) → BufTy
  | .hbm, ⟨0, _⟩ => ⟨S20000x1024, .f32⟩
  | .hbm, ⟨1, _⟩ => ⟨S21x1024, .f32⟩
  | .hbm, ⟨2, _⟩ => ⟨S21, .f32⟩
  | .hbm, ⟨3, _⟩ => ⟨S1024x21, .f32⟩
  | .hbm, ⟨4, _⟩ => ⟨S1x21, .f32⟩
  | .hbm, ⟨5, _⟩ => ⟨S4x5000x21, .f32⟩
  | .hbm, ⟨6, _⟩ => ⟨S20000x21, .f32⟩
  | .local _ .vmem, ⟨0, _⟩ => ⟨S200x1024, .f32⟩
  | .local _ .vmem, ⟨1, _⟩ => ⟨S200x1024, .f32⟩
  | .local _ .vmem, ⟨2, _⟩ => ⟨S200x1024, .f32⟩
  | .local _ .vmem, ⟨3, _⟩ => ⟨S200x1024, .f32⟩
  | .local _ .vmem, ⟨4, _⟩ => ⟨S200x1024, .f32⟩
  | .local _ .vmem, ⟨5, _⟩ => ⟨S200x1024, .f32⟩
  | .local _ .vmem, ⟨6, _⟩ => ⟨S200x1024, .f32⟩
  | .local _ .vmem, ⟨7, _⟩ => ⟨S200x1024, .f32⟩
  | .local _ .vmem, ⟨8, _⟩ => ⟨S1024x21, .f32⟩
  | .local _ .vmem, ⟨9, _⟩ => ⟨S1x21, .f32⟩
  | .local _ .vmem, ⟨10, _⟩ => ⟨S4x200x21, .f32⟩
  | .local _ .vmem, ⟨11, _⟩ => ⟨S4x200x21, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c50_i32 : BitVec 32 := 50#32
  let v0 : BitVec 32 := Scalar.addi c50_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c75_i32 : BitVec 32 := 75#32
  let v0 : BitVec 32 := Scalar.addi c75_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x21 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x21 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x200x21 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S21x1024_S1024x21_1_0 : S21x1024.Transposes [1, 0] S1024x21
  shapeCasts_S21_S1x21 : S21.ShapeCasts S1x21
  inb_S200x1024_S200x1024_0_0 : ∀ a, (![0, 0] : Fin 2 → Nat) a + S200x1024.size a ≤ S200x1024.size a
  h_S200x1024 : 0 < S200x1024.numel
  inb_S1024x21_S1024x21_0_0 : ∀ a, (![0, 0] : Fin 2 → Nat) a + S1024x21.size a ≤ S1024x21.size a
  h_S1024x21 : 0 < S1024x21.numel
  shapeCasts_S1024x21_S1024x21 : S1024x21.ShapeCasts S1024x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S200x21 : S1x21.Broadcasts S200x21
  inb_S4x200x21_S1x200x21_0_0_0 : ∀ a, (![0, 0, 0] : Fin 3 → Nat) a + S1x200x21.size a ≤ S4x200x21.size a
  h_S1x200x21 : 0 < S1x200x21.numel
  shapeCasts_S1x200x21_S200x21 : S1x200x21.ShapeCasts S200x21
  shapeCasts_S200x21_S1x200x21 : S200x21.ShapeCasts S1x200x21
  inb_S4x200x21_S1x200x21_1_0_0 : ∀ a, (![1, 0, 0] : Fin 3 → Nat) a + S1x200x21.size a ≤ S4x200x21.size a
  inb_S4x200x21_S1x200x21_2_0_0 : ∀ a, (![2, 0, 0] : Fin 3 → Nat) a + S1x200x21.size a ≤ S4x200x21.size a
  inb_S4x200x21_S1x200x21_3_0_0 : ∀ a, (![3, 0, 0] : Fin 3 → Nat) a + S1x200x21.size a ≤ S4x200x21.size a
  shapeCasts_S4x5000x21_S20000x21 : S4x5000x21.ShapeCasts S20000x21
  dot_S200x1024_S1024x21_S200x21_1_0_0_1_n_n_wf : DotDims.WF S200x1024 S1024x21 S200x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x1024.size a ≤ S20000x1024.size a
  hwx0_0 : ∀ i : grid0.Coords, EltTy.bits .f32 = 32 ∨ (Rect.block (s := S20000x1024) S200x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1024.size a ≤ S20000x1024.size a
  hwx0_1 : ∀ i : grid0.Coords, EltTy.bits .f32 = 32 ∨ (Rect.block (s := S20000x1024) S200x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1024.size a ≤ S20000x1024.size a
  hwx0_2 : ∀ i : grid0.Coords, EltTy.bits .f32 = 32 ∨ (Rect.block (s := S20000x1024) S200x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1024.size a ≤ S20000x1024.size a
  hwx0_3 : ∀ i : grid0.Coords, EltTy.bits .f32 = 32 ∨ (Rect.block (s := S20000x1024) S200x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x21.size a ≤ S1024x21.size a
  hwx0_4 : ∀ i : grid0.Coords, EltTy.bits .f32 = 32 ∨ (Rect.block (s := S1024x21) S1024x21.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x21.size a ≤ S1x21.size a
  hwx0_5 : ∀ i : grid0.Coords, EltTy.bits .f32 = 32 ∨ (Rect.block (s := S1x21) S1x21.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x200x21.size a ≤ S4x5000x21.size a
  hwx0_6 : ∀ i : grid0.Coords, EltTy.bits .f32 = 32 ∨ (Rect.block (s := S4x5000x21) S4x200x21.size (cc0_transform_6 i) (hinb0_6 i)).WholeWords (EltTy.packing .f32)

variable [Facts₀]

def dot_S200x1024_S1024x21_S200x21_1_0_0_1_n_n : DotDims S200x1024 S1024x21 S200x21 where
  lhsContracting := [1]
  rhsContracting := [0]
  lhsNonContracting := [0]
  rhsNonContracting := [1]
  lhsBatch := []
  rhsBatch := []
  wf := dot_S200x1024_S1024x21_S200x21_1_0_0_1_n_n_wf

abbrev win0_0 : Pipeline.Window sig grid0 :=
  Pipeline.Window.ofSpec (Memref.whole main_arg0) S200x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S200x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S200x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x21.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x21.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4x200x21.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S21x1024 : Shape := ⟨2, ![21, 1024]⟩
abbrev S21 : Shape := ⟨1, ![21]⟩
abbrev S1024x21 : Shape := ⟨2, ![1024, 21]⟩
abbrev S20000x21 : Shape := ⟨2, ![20000, 21]⟩
abbrev S1x21 : Shape := ⟨2, ![1, 21]⟩

abbrev nBuf : Space → Nat
  | .hbm => 8
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S21x1024, .f32⟩
  | .hbm, ⟨2, _⟩ => ⟨S21, .f32⟩
  | .hbm, ⟨3, _⟩ => ⟨S1024x21, .f32⟩
  | .hbm, ⟨4, _⟩ => ⟨S20000x21, .f32⟩
  | .hbm, ⟨5, _⟩ => ⟨S1x21, .f32⟩
  | .hbm, ⟨6, _⟩ => ⟨S20000x21, .f32⟩
  | .hbm, ⟨7, _⟩ => ⟨S20000x21, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S21x1024_S1024x21_1_0 : S21x1024.Transposes [1, 0] S1024x21
  bcast_S21_S1x21_1 : S21.BroadcastsInDim S1x21 (![1] : Fin 1 → Fin S1x21.rank)
  bcast_S1x21_S20000x21_0_1 : S1x21.BroadcastsInDim S20000x21 (![0, 1] : Fin 2 → Fin S20000x21.rank)
  dot_S20000x1024_S1024x21_S20000x21_1_0_0_1_n_n_wf : DotDims.WF S20000x1024 S1024x21 S20000x21 [1] [0] [0] [1] [] []

variable [Facts₀]

def dot_S20000x1024_S1024x21_S20000x21_1_0_0_1_n_n : DotDims S20000x1024 S1024x21 S20000x21 where
  lhsContracting := [1]
  rhsContracting := [0]
  lhsNonContracting := [0]
  rhsNonContracting := [1]
  lhsBatch := []
  rhsBatch := []
  wf := dot_S20000x1024_S1024x21_S20000x21_1_0_0_1_n_n_wf

class Facts : Prop extends Facts₀ where

variable [Facts]
-- ==== Proof.Data.lean ====
/-
  The proof data of the one pipelined region, at any float instance.

  The region runs 25 grid points. At point `t` the four row-slab windows (all four on the argument array
  `x`, at block rows `25 s + t`, `s = 0, 1, 2, 3`) hold their 200-row blocks, the resident windows hold the
  transposed weights and the bias row, and the body leaves in the output window's buffer the four slabs
  `x_s · Wᵀ + b` stacked along the leading axis: written as the canonical contents of its four stores, the last
  store first. The four windows on `x` each hold a quarter of the array's share.
-/
import proofs.«154572_g84507776516528_cont_sun_m_565_6_alg».proof.Proof.Gen.KernelIdeal.Launch
import proofs.«154572_g84507776516528_cont_sun_m_565_6_alg».proof.Proof.Gen.KernelIdeal.Skeleton
import proofs.«154572_g84507776516528_cont_sun_m_565_6_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffer contents when the region is entered: the launch contents after the two host operations
    before it (the transposed weights, the bias as a row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's accesses: each input buffer whole, the output buffer one slab at a time. -/
abbrev rX : Rect S200x1024 := Rect.unit (s := S200x1024) ![0, 0] S200x1024.size inb_S200x1024_S200x1024_0_0
abbrev rW : Rect S1024x21 := Rect.unit (s := S1024x21) ![0, 0] S1024x21.size inb_S1024x21_S1024x21_0_0
abbrev rB : Rect S1x21 := Rect.unit (s := S1x21) ![0, 0] S1x21.size inb_S1x21_S1x21_0_0
abbrev rO0 : Rect S4x200x21 := Rect.unit (s := S4x200x21) ![0, 0, 0] S1x200x21.size inb_S4x200x21_S1x200x21_0_0_0
abbrev rO1 : Rect S4x200x21 := Rect.unit (s := S4x200x21) ![1, 0, 0] S1x200x21.size inb_S4x200x21_S1x200x21_1_0_0
abbrev rO2 : Rect S4x200x21 := Rect.unit (s := S4x200x21) ![2, 0, 0] S1x200x21.size inb_S4x200x21_S1x200x21_2_0_0
abbrev rO3 : Rect S4x200x21 := Rect.unit (s := S4x200x21) ![3, 0, 0] S1x200x21.size inb_S4x200x21_S1x200x21_3_0_0

/-- The output window's buffer after the body, from the six input blocks: slab `s` holds the product of the
    `s`-th row block with the transposed weights plus the bias row; the four stores as pieces, last first. -/
def out6 (x0 x1 x2 x3 : Vec F S200x1024 .f32) (wt : Vec F S1024x21 .f32) (b : Vec F S1x21 .f32) : Vec F S4x200x21 .f32 :=
  View.canon [⟨rO3, k0_pay2 (View.ld x3 rX) (View.ld wt rW) (View.ld b rB)⟩,
    ⟨rO2, k0_pay1 (k0_pay5 (View.ld x2 rX) (View.ld wt rW) (View.ld b rB))⟩,
    ⟨rO1, k0_pay4 (View.ld x1 rX) (View.ld wt rW) (View.ld b rB)⟩,
    ⟨rO0, k0_pay3 (View.ld x0 rX) (View.ld wt rW) (View.ld b rB)⟩]

/-- The proof data of the pipeline on core `c`: the arrays as the region finds them; after the body at point `t`
    each input's buffer at its block and the output's at `out6` of the input blocks; the invariant the scoped rest
    and the generator register, untouched; nothing owed; the row-slab windows a quarter of `x`'s share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

end Cert.KernelIdeal.Hand

end
-- ==== Proof.Body.lean ====
/-
  The body of the one pipelined region, at any float instance.

  At a grid point the body reads each of the four row-slab buffers whole, the transposed weights and the bias
  row, and stores into slab `s` of the output buffer the product of the `s`-th row block with the transposed
  weights plus the bias row. The four stores tile the output buffer, so what it holds afterwards does not
  depend on what it held before: it is the canonical contents of the four stores.
-/
import proofs.«154572_g84507776516528_cont_sun_m_565_6_alg».proof.Proof.Data
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The four stores tile the output buffer -/

/-- The four slab rectangles tile the `[4, 200, 21]` buffer, so every index lies in one of them. -/
theorem cover6 (p3 p2 p1 p0 : Vec F S1x200x21 .f32) (y : S4x200x21.Idx) :
    ∃ pc ∈ ([⟨rO3, p3⟩, ⟨rO2, p2⟩, ⟨rO1, p1⟩, ⟨rO0, p0⟩] : List (View.Piece (Elt F) S4x200x21 .f32)), y ∈ pc.1.set :=
  View.cover_of_tiled [⟨rO3, p3⟩, ⟨rO2, p2⟩, ⟨rO1, p1⟩, ⟨rO0, p0⟩] S1x200x21.size (by rfl) y

/-! ## The body's triple -/

set_option maxHeartbeats 1000000 in
/-- The body on whole buffers, the six inputs' at given contents and the output's at anything, runs to the
    continuation holding the inputs' as they were and the output's at `out6` of the inputs'. -/
theorem sound_kernel (c : Dev nD) (E : Set ℕ) (i : grid0.Coords)
    (arg1 : Memref sig .tc .vmem S200x1024 .f32) (harg1 : arg1.IsWhole) (arg2 : Memref sig .tc .vmem S200x1024 .f32) (harg2 : arg2.IsWhole)
    (arg3 : Memref sig .tc .vmem S200x1024 .f32) (harg3 : arg3.IsWhole) (arg4 : Memref sig .tc .vmem S200x1024 .f32) (harg4 : arg4.IsWhole)
    (arg5 : Memref sig .tc .vmem S1024x21 .f32) (harg5 : arg5.IsWhole) (arg6 : Memref sig .tc .vmem S1x21 .f32) (harg6 : arg6.IsWhole)
    (arg7 : Memref sig .tc .vmem S4x200x21 .f32) (harg7 : arg7.IsWhole)
    (x0 x1 x2 x3 : Vec F S200x1024 .f32) (wt : Vec F S1024x21 .f32) (b : Vec F S1x21 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare wt ∗ owns (c : Thread nD τ) arg6 fullShare b
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare wt ∗ owns (c : Thread nD τ) arg6 fullShare b
              ∗ owns (c : Thread nD τ) arg7 fullShare (out6 x0 x1 x2 x3 wt b)) -∗ K ⟨⟩))
      ⊢ wp frame (wpE (defs₀ (F := F)) Variants.none c none) E (cc0__matmul_kernel i arg1 harg1 arg2 harg2 arg3 harg3 arg4 harg4 arg5 harg5 arg6 harg6 arg7 harg7) K := by
  simp only [cc0__matmul_kernel_eq_skeleton]; unfold cc0__matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6 _ _ _ _)

/-! ## What the input buffers hold when the body is called -/

/-- Each input window's current buffer holds its block at every point, fetched there or not: a window not fetched
    at a point has the block index it had at the point before, and the body left its block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body obligation, at a generic point -/

/-- What the body is called with at point `t`: the invariant, what the core owes, and each of the seven windows'
    current buffers at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: the same at the next point, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the six input buffers hold their blocks, so the body's triple applies with the blocks
    as the inputs; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.DataK.lean ====
/-
  The proof data of the one pipelined region, at any float instance.

  The region runs 25 grid points. At point `t` the four row-slab windows (all four on the argument array
  `x`, at block rows `25 s + t`, `s = 0, 1, 2, 3`) hold their 200-row blocks, the resident windows hold the
  transposed weights and the bias row, and the body leaves in the output window's buffer the four slabs
  `x_s · Wᵀ + b` stacked along the leading axis: written as the canonical contents of its four stores, the last
  store first. The four windows on `x` each hold a quarter of the array's share.
-/
import proofs.«154572_g84507776516528_cont_sun_m_565_6_alg».proof.Proof.Gen.Kernel.Launch
import proofs.«154572_g84507776516528_cont_sun_m_565_6_alg».proof.Proof.Gen.Kernel.Skeleton
import proofs.«154572_g84507776516528_cont_sun_m_565_6_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffer contents when the region is entered: the launch contents after the two host operations
    before it (the transposed weights, the bias as a row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's accesses: each input buffer whole, the output buffer one slab at a time. -/
abbrev rX : Rect S200x1024 := Rect.unit (s := S200x1024) ![0, 0] S200x1024.size inb_S200x1024_S200x1024_0_0
abbrev rW : Rect S1024x21 := Rect.unit (s := S1024x21) ![0, 0] S1024x21.size inb_S1024x21_S1024x21_0_0
abbrev rB : Rect S1x21 := Rect.unit (s := S1x21) ![0, 0] S1x21.size inb_S1x21_S1x21_0_0
abbrev rO0 : Rect S4x200x21 := Rect.unit (s := S4x200x21) ![0, 0, 0] S1x200x21.size inb_S4x200x21_S1x200x21_0_0_0
abbrev rO1 : Rect S4x200x21 := Rect.unit (s := S4x200x21) ![1, 0, 0] S1x200x21.size inb_S4x200x21_S1x200x21_1_0_0
abbrev rO2 : Rect S4x200x21 := Rect.unit (s := S4x200x21) ![2, 0, 0] S1x200x21.size inb_S4x200x21_S1x200x21_2_0_0
abbrev rO3 : Rect S4x200x21 := Rect.unit (s := S4x200x21) ![3, 0, 0] S1x200x21.size inb_S4x200x21_S1x200x21_3_0_0

/-- The output window's buffer after the body, from the six input blocks: slab `s` holds the product of the
    `s`-th row block with the transposed weights plus the bias row; the four stores as pieces, last first. -/
def out6 (x0 x1 x2 x3 : Vec F S200x1024 .f32) (wt : Vec F S1024x21 .f32) (b : Vec F S1x21 .f32) : Vec F S4x200x21 .f32 :=
  View.canon [⟨rO3, k0_pay2 (View.ld x3 rX) (View.ld wt rW) (View.ld b rB)⟩,
    ⟨rO2, k0_pay1 (k0_pay5 (View.ld x2 rX) (View.ld wt rW) (View.ld b rB))⟩,
    ⟨rO1, k0_pay4 (View.ld x1 rX) (View.ld wt rW) (View.ld b rB)⟩,
    ⟨rO0, k0_pay3 (View.ld x0 rX) (View.ld wt rW) (View.ld b rB)⟩]

/-- The proof data of the pipeline on core `c`: the arrays as the region finds them; after the body at point `t`
    each input's buffer at its block and the output's at `out6` of the input blocks; the invariant the scoped rest
    and the generator register, untouched; nothing owed; the row-slab windows a quarter of `x`'s share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

end Cert.Kernel.Hand

end
-- ==== Proof.BodyK.lean ====
/-
  The body of the one pipelined region, at any float instance.

  At a grid point the body reads each of the four row-slab buffers whole, the transposed weights and the bias
  row, and stores into slab `s` of the output buffer the product of the `s`-th row block with the transposed
  weights plus the bias row. The four stores tile the output buffer, so what it holds afterwards does not
  depend on what it held before: it is the canonical contents of the four stores.
-/
import proofs.«154572_g84507776516528_cont_sun_m_565_6_alg».proof.Proof.DataK
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The four stores tile the output buffer -/

/-- The four slab rectangles tile the `[4, 200, 21]` buffer, so every index lies in one of them. -/
theorem cover6 (p3 p2 p1 p0 : Vec F S1x200x21 .f32) (y : S4x200x21.Idx) :
    ∃ pc ∈ ([⟨rO3, p3⟩, ⟨rO2, p2⟩, ⟨rO1, p1⟩, ⟨rO0, p0⟩] : List (View.Piece (Elt F) S4x200x21 .f32)), y ∈ pc.1.set :=
  View.cover_of_tiled [⟨rO3, p3⟩, ⟨rO2, p2⟩, ⟨rO1, p1⟩, ⟨rO0, p0⟩] S1x200x21.size (by rfl) y

/-! ## The body's triple -/

set_option maxHeartbeats 1000000 in
/-- The body on whole buffers, the six inputs' at given contents and the output's at anything, runs to the
    continuation holding the inputs' as they were and the output's at `out6` of the inputs'. -/
theorem sound_kernel (c : Dev nD) (E : Set ℕ) (i : grid0.Coords)
    (arg1 : Memref sig .tc .vmem S200x1024 .f32) (harg1 : arg1.IsWhole) (arg2 : Memref sig .tc .vmem S200x1024 .f32) (harg2 : arg2.IsWhole)
    (arg3 : Memref sig .tc .vmem S200x1024 .f32) (harg3 : arg3.IsWhole) (arg4 : Memref sig .tc .vmem S200x1024 .f32) (harg4 : arg4.IsWhole)
    (arg5 : Memref sig .tc .vmem S1024x21 .f32) (harg5 : arg5.IsWhole) (arg6 : Memref sig .tc .vmem S1x21 .f32) (harg6 : arg6.IsWhole)
    (arg7 : Memref sig .tc .vmem S4x200x21 .f32) (harg7 : arg7.IsWhole)
    (x0 x1 x2 x3 : Vec F S200x1024 .f32) (wt : Vec F S1024x21 .f32) (b : Vec F S1x21 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare wt ∗ owns (c : Thread nD τ) arg6 fullShare b
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare wt ∗ owns (c : Thread nD τ) arg6 fullShare b
              ∗ owns (c : Thread nD τ) arg7 fullShare (out6 x0 x1 x2 x3 wt b)) -∗ K ⟨⟩))
      ⊢ wp frame (wpE (defs₀ (F := F)) Variants.none c none) E (cc0__matmul_kernel i arg1 harg1 arg2 harg2 arg3 harg3 arg4 harg4 arg5 harg5 arg6 harg6 arg7 harg7) K := by
  simp only [cc0__matmul_kernel_eq_skeleton]; unfold cc0__matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6 _ _ _ _)

/-! ## What the input buffers hold when the body is called -/

/-- Each input window's current buffer holds its block at every point, fetched there or not: a window not fetched
    at a point has the block index it had at the point before, and the body left its block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body obligation, at a generic point -/

/-- What the body is called with at point `t`: the invariant, what the core owes, and each of the seven windows'
    current buffers at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: the same at the next point, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the six input buffers hold their blocks, so the body's triple applies with the blocks
    as the inputs; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Launch.lean ====
/-
  The run of the whole program, at any float instance: the two host operations before the region, the region's 25
  grid points, the reshape after it.

  Four of the region's windows read ONE array, the argument `x`: the array's points-to is dealt among them in
  quarter shares when the region is entered and put together again when it is left, and no window writes it. The
  reshape after the region reads the region's result and writes the program's.
-/
import proofs.«154572_g84507776516528_cont_sun_m_565_6_alg».proof.Proof.Data
import Idealize.ShloMosaic.Lib.Pipeline.FrameSuffix
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two operations before the region, the region, and the reshape after it: from the launch
    contents it reaches the region holding the unscoped buffers at `V`, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The region's arrays, window by window -/

/-- The pipeline's arrays at contents `F`, written out: the four row-slab windows hold the argument array `x` at a
    quarter share each, the resident windows and the output window their arrays outright. -/
theorem arrays_chain (c : Dev nD) (F : (w : Fin cfg0.W) → Buf (Elt F) ((cfg0.win w).arr.view.loc (c.tc : Thread nD τ))) :
    ((dats m 0 c).arrays F : sProp 𝕄) = iprop(
      (((c.tc : Thread nD τ).loc main_arg0) ↦{fullShare.left.left} F 0) ∗ (((c.tc : Thread nD τ).loc main_arg0) ↦{fullShare.left.right} F 1)
      ∗ (((c.tc : Thread nD τ).loc main_arg0) ↦{fullShare.right.left} F 2) ∗ (((c.tc : Thread nD τ).loc main_arg0) ↦{fullShare.right.right} F 3)
      ∗ (((c.tc : Thread nD τ).loc main_v0) ↦{fullShare} F 4) ∗ (((c.tc : Thread nD τ).loc main_v1) ↦{fullShare} F 5)
      ∗ (((c.tc : Thread nD τ).loc main_v2) ↦{fullShare} F 6)) := by
  unfold Dat.arrays
  rw [bigSep_W0]
  simp only [Dat.share, dats, Bool.false_eq_true, if_false, if_true]
  rw [show (View.whole main_arg0 : View sig .tc _ _ _).set = Finset.univ from (Memref.isWhole_whole main_arg0).set_eq_univ,
    show (View.whole main_v0 : View sig .tc _ _ _).set = Finset.univ from (Memref.isWhole_whole main_v0).set_eq_univ,
    show (View.whole main_v1 : View sig .tc _ _ _).set = Finset.univ from (Memref.isWhole_whole main_v1).set_eq_univ,
    show (View.whole main_v2 : View sig .tc _ _ _).set = Finset.univ from (Memref.isWhole_whole main_v2).set_eq_univ]

/-- The distinct buffers behind the windows' arrays, one by one. -/
theorem arrBufs_chain (c : Dev nD) (Vv : (b : Ref sig .tc) → Buf (Elt F) ((c.tc : Thread nD τ).loc b)) :
    (Pipeline.arrBufs spec0 c Vv : sProp 𝕄) = iprop((((c.tc : Thread nD τ).loc main_arg0) ↦{fullShare} Vv main_arg0)
      ∗ (((c.tc : Thread nD τ).loc main_v0) ↦{fullShare} Vv main_v0) ∗ (((c.tc : Thread nD τ).loc main_v1) ↦{fullShare} Vv main_v1)
      ∗ (((c.tc : Thread nD τ).loc main_v2) ↦{fullShare} Vv main_v2)) := by
  unfold Pipeline.arrBufs
  exact bigSep_eq_bigSepL_of_eq [main_arg0, main_v0, main_v1, main_v2] (by decide) (by decide) _

/-- Entering the region: the buffers behind the arrays, whole at the entry contents, are the pipeline's arrays — the
    argument array's share halved twice for its four windows. -/
theorem arrays_of_bufs (c : Dev nD) (F : (w : Fin cfg0.W) → Buf (Elt F) ((cfg0.win w).arr.view.loc (c.tc : Thread nD τ)))
    (h0 : F 0 = V m c main_arg0) (h1 : F 1 = V m c main_arg0) (h2 : F 2 = V m c main_arg0) (h3 : F 3 = V m c main_arg0)
    (h4 : F 4 = V m c main_v0) (h5 : F 5 = V m c main_v1) (h6 : F 6 = V m c main_v2) :
    (Pipeline.arrBufs spec0 c (V m c) : sProp 𝕄) ⊢ (dats m 0 c).arrays F := by
  rw [arrays_chain, h0, h1, h2, h3, h4, h5, h6]
  rw [arrBufs_chain]
  iintro ⟨H0, H4, H5, H6⟩
  ihave H0 := (pointsTo_share (PosShare.mem_left_op_right fullShare)).1 $$ H0
  icases H0 with ⟨Hl, Hr⟩
  ihave Hl := (pointsTo_share (PosShare.mem_left_op_right fullShare.left)).1 $$ Hl
  ihave Hr := (pointsTo_share (PosShare.mem_left_op_right fullShare.right)).1 $$ Hr
  icases Hl with ⟨Hll, Hlr⟩
  icases Hr with ⟨Hrl, Hrr⟩
  isplitl [Hll]; · iexact Hll
  isplitl [Hlr]; · iexact Hlr
  isplitl [Hrl]; · iexact Hrl
  isplitl [Hrr]; · iexact Hrr
  isplitl [H4]; · iexact H4
  isplitl [H5]; · iexact H5
  iexact H6

/-! ## What the argument arrays hold when the region is entered -/

/-- The two host operations before the region write the transposed weights and the bias row only: `x` is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The reshape after the region -/

/-- The buffer contents the reshape runs from: as the region was entered, but for the region's result `A6`. -/
def Wt (c : Dev nD) (A6 : Buf (Elt F) ((c : Thread nD τ).loc main_v2)) : Valuation τ sig (Elt F) :=
  Function.update (V0 m c) (Proc.devRef .tc main_v2) A6

/-- The program's result from the region's: the [4, 5000, 21] array read as [20000, 21]. -/
def resultOf (c : Dev nD) (A6 : Buf (Elt F) ((c : Thread nD τ).loc main_v2)) : Buf (Elt F) ((c : Thread nD τ).loc main_v3) :=
  StableHlo.after (List.flatten [hostOps1]) (Wt m c A6) (Proc.devRef .tc main_v3)

theorem Wt_v2 (c : Dev nD) (A6 : Buf (Elt F) ((c : Thread nD τ).loc main_v2)) : Wt m c A6 (Proc.devRef .tc main_v2) = A6 := by
  unfold Wt; exact Function.update_self ..
theorem Wt_v3 (c : Dev nD) (A6 : Buf (Elt F) ((c : Thread nD τ).loc main_v2)) : Wt m c A6 (Proc.devRef .tc main_v3) = V m c main_v3 := by
  unfold Wt; exact Function.update_of_ne (StableHlo.devRef_ne_of_ne (by decide)) ..

/-- The reshape's two buffers. -/
abbrev tailSet : Finset (DevRef τ sig) := {Proc.devRef .tc main_v2, Proc.devRef .tc main_v3}

theorem held_tailSet (c : Dev nD) (Wv : Valuation τ sig (Elt F)) :
    (StableHlo.held (c.tc : Thread nD τ) tailSet Wv : sProp 𝕄)
      = iprop((((c.tc : Thread nD τ).loc main_v2) ↦{fullShare} Wv (Proc.devRef .tc main_v2)) ∗ (((c.tc : Thread nD τ).loc main_v3) ↦{fullShare} Wv (Proc.devRef .tc main_v3))) := by
  unfold StableHlo.held tailSet
  rw [bigSep_insert (by decide), bigSep_singleton]
  rfl

/-- The reshape writes the program's result and nothing else. -/
theorem after_tail_v2 (c : Dev nD) (A6 : Buf (Elt F) ((c : Thread nD τ).loc main_v2)) :
    StableHlo.after (List.flatten [hostOps1]) (Wt m c A6) (Proc.devRef .tc main_v2) = A6 := by
  rw [StableHlo.after_of_forall_not_mem (b := Proc.devRef .tc main_v2) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne (by decide))), Wt_v2]

/-- THE LINE AFTER THE REGION: holding the region's result and the program's result buffer, the reshape runs and
    leaves the first as it was and the second at `resultOf`. -/
theorem tail_step (𝒱₀ : Variants) (c : Dev nD) (A6 : Buf (Elt F) ((c : Thread nD τ).loc main_v2)) (K : PUnit → sProp 𝕄) :
    iprop(boundary (c.tc : Thread nD τ) ∗ (((c.tc : Thread nD τ).loc main_v2) ↦{fullShare} A6) ∗ (((c.tc : Thread nD τ).loc main_v3) ↦{fullShare} V m c main_v3)
        ∗ (iprop((((c.tc : Thread nD τ).loc main_v2) ↦{fullShare} A6) ∗ (((c.tc : Thread nD τ).loc main_v3) ↦{fullShare} resultOf m c A6)) -∗ K ⟨⟩))
      ⊢ wp frame (wpE (Pipeline.defs (pcfgs (F := F)) defs₀) (Variants.lift 𝒱₀) (c.tc : Thread nD τ) none) Set.univ
          (Pipeline.chain [StableHlo.seq hostOps1]) K := by
  have hsub : ∀ ops ∈ ([hostOps1] : List (List (HloOp τ sig (Elt F)))), ∀ op ∈ ops, op.bufs ⊆ tailSet := by
    intro ops hops op hop
    simp only [List.mem_cons, List.mem_nil_iff, or_false] at hops
    subst hops
    simp only [hostOps1, List.mem_cons, List.mem_nil_iff, or_false] at hop
    subst hop
    exact Finset.Subset.refl _
  have hfresh : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  iintro ⟨Hb, H2, H3, Hk⟩
  rw [show ([StableHlo.seq hostOps1] : List (Prog (TpuEff nD τ sig (Elt F) _ .tc) PUnit)) = ([hostOps1].map StableHlo.seq ++ []) from rfl]
  iapply (Pipeline.wp_seqs_then (pcfgs (F := F)) defs₀ 𝒱₀ c tailSet [] [hostOps1] hsub hfresh (Wt m c A6)) $$ [Hb H2 H3]
  · isplitl [Hb]; · iexact Hb
    rw [held_tailSet, Wt_v2, Wt_v3]
    isplitl [H2]; · iexact H2
    iexact H3
  iintro Hb
  rw [Pipeline.chain_nil, wp_pure, held_tailSet, after_tail_v2]
  imodintro
  iapply Hk
  icases Hb with ⟨-, H⟩
  iexact H

/-! ## The run -/

/-- What the buffers that bypass the region hold at the end: the weights and the bias as the region found them,
    the program's result buffer at the reshape of the region's result. -/
def Tv (c : Dev nD) : (b : Ref sig .tc) → Buf (Elt F) ((c.tc : Thread nD τ).loc b) :=
  Function.update (V m c) main_v3 (resultOf m c ((dats m 0 c).arrAt 6 cfg0.N))

theorem Tv_arg1 (c : Dev nD) : Tv m c main_arg1 = V m c main_arg1 := by unfold Tv; exact Function.update_of_ne (by decide) ..
theorem Tv_arg2 (c : Dev nD) : Tv m c main_arg2 = V m c main_arg2 := by unfold Tv; exact Function.update_of_ne (by decide) ..
theorem Tv_v3 (c : Dev nD) : Tv m c main_v3 = resultOf m c ((dats m 0 c).arrAt 6 cfg0.N) := by unfold Tv; exact Function.update_self ..

/-- THE RUN, given the body obligation: every weakly fair execution of the program terminates, nothing faulting; the
    program's result is the reshape of what the 25 write-backs left in the region's result array, and the three
    argument arrays are as launched. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v3) = resultOf m c ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c _ rfl rfl rfl rfl rfl rfl rfl)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Tv m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [arrays_chain, unscopedRest0_eq, unscopedRest0_eq, Tv_arg1, Tv_arg2, Tv_v3]
      iintro ⟨Hk, Hb, ⟨A0, A1, A2, A3, A4, A5, A6⟩, ⟨R1, R2, R3⟩⟩
      iapply (tail_step m Variants.none c _ Q')
      isplitl [Hb]; · iexact Hb
      isplitl [A6]; · iexact A6
      isplitl [R3]; · iexact R3
      iintro ⟨A6, R3⟩
      iapply Hk
      isplitl [A0 A1 A2 A3 A4 A5 A6]
      · isplitl [A0]; · iexact A0
        isplitl [A1]; · iexact A1
        isplitl [A2]; · iexact A2
        isplitl [A3]; · iexact A3
        isplitl [A4]; · iexact A4
        isplitl [A5]; · iexact A5
        iexact A6
      isplitl [R1]; · iexact R1
      isplitl [R2]; · iexact R2
      iexact R3)
    (QY := fun c s => ∀ b ∈ Pipeline.restRefs sig spec0, s.mem ((c.tc : Thread nD τ).loc b) = Tv m c b)
    (hY := fun c s' => by
      iintro ⟨-, HU, HSI⟩
      unfold Pipeline.unscopedRest
      imodintro
      iapply (pointsTo_read_all (Pipeline.restRefs sig spec0) (fun b => (c.tc : Thread nD τ).loc b) (Tv m c) s')
      isplitl [HU] <;> iassumption)
    (hQ := fun s h c => by
      obtain ⟨harr, -, hrest⟩ := h c
      refine ⟨?_, ?_, ?_, ?_⟩
      · exact (hrest main_v3 (Pipeline.mem_restRefs_of main_v3 (by decide) (by decide))).trans (Tv_v3 m c)
      · exact ((harr 0).trans ((dats m 0 c).arrAt_in 0 rfl cfg0.N)).trans (V_main_arg0 m c)
      · exact ((hrest main_arg1 (Pipeline.mem_restRefs_of main_arg1 (by decide) (by decide))).trans (Tv_arg1 m c)).trans (V_main_arg1 m c)
      · exact ((hrest main_arg2 (Pipeline.mem_restRefs_of main_arg2 (by decide) (by decide))).trans (Tv_arg2 m c)).trans (V_main_arg2 m c))

/-- The program's result is the region's result read through the reshape of [4, 5000, 21] as [20000, 21]. -/
theorem resultOf_eq (c : Dev nD) (A6 : Buf (Elt F) ((c : Thread nD τ).loc main_v2)) :
    (resultOf m c A6 : S20000x21.Idx → Elt F .f32) = shapeCast S20000x21 (A6 : S4x5000x21.Idx → Elt F .f32) shapeCasts_S4x5000x21_S20000x21 := by
  unfold resultOf
  simp only [hostOps1, List.flatten_cons, List.flatten_nil, List.append_nil]
  after_results
  rw [Wt_v2]
  rfl

end Cert.KernelIdeal.Hand

end
-- ==== Proof.LaunchK.lean ====
/-
  The run of the whole program, at any float instance: the two host operations before the region, the region's 25
  grid points, the reshape after it.

  Four of the region's windows read ONE array, the argument `x`: the array's points-to is dealt among them in
  quarter shares when the region is entered and put together again when it is left, and no window writes it. The
  reshape after the region reads the region's result and writes the program's.
-/
import proofs.«154572_g84507776516528_cont_sun_m_565_6_alg».proof.Proof.DataK
import Idealize.ShloMosaic.Lib.Pipeline.FrameSuffix
import Idealize.ShloMosaic.Lib.Pipeline.Kit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two operations before the region, the region, and the reshape after it: from the launch
    contents it reaches the region holding the unscoped buffers at `V`, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The region's arrays, window by window -/

/-- The pipeline's arrays at contents `F`, written out: the four row-slab windows hold the argument array `x` at a
    quarter share each, the resident windows and the output window their arrays outright. -/
theorem arrays_chain (c : Dev nD) (F : (w : Fin cfg0.W) → Buf (Elt F) ((cfg0.win w).arr.view.loc (c.tc : Thread nD τ))) :
    ((dats m 0 c).arrays F : sProp 𝕄) = iprop(
      (((c.tc : Thread nD τ).loc main_arg0) ↦{fullShare.left.left} F 0) ∗ (((c.tc : Thread nD τ).loc main_arg0) ↦{fullShare.left.right} F 1)
      ∗ (((c.tc : Thread nD τ).loc main_arg0) ↦{fullShare.right.left} F 2) ∗ (((c.tc : Thread nD τ).loc main_arg0) ↦{fullShare.right.right} F 3)
      ∗ (((c.tc : Thread nD τ).loc main_v0) ↦{fullShare} F 4) ∗ (((c.tc : Thread nD τ).loc main_v1) ↦{fullShare} F 5)
      ∗ (((c.tc : Thread nD τ).loc main_v2) ↦{fullShare} F 6)) := by
  unfold Dat.arrays
  rw [bigSep_W0]
  simp only [Dat.share, dats, Bool.false_eq_true, if_false, if_true]
  rw [show (View.whole main_arg0 : View sig .tc _ _ _).set = Finset.univ from (Memref.isWhole_whole main_arg0).set_eq_univ,
    show (View.whole main_v0 : View sig .tc _ _ _).set = Finset.univ from (Memref.isWhole_whole main_v0).set_eq_univ,
    show (View.whole main_v1 : View sig .tc _ _ _).set = Finset.univ from (Memref.isWhole_whole main_v1).set_eq_univ,
    show (View.whole main_v2 : View sig .tc _ _ _).set = Finset.univ from (Memref.isWhole_whole main_v2).set_eq_univ]

/-- The distinct buffers behind the windows' arrays, one by one. -/
theorem arrBufs_chain (c : Dev nD) (Vv : (b : Ref sig .tc) → Buf (Elt F) ((c.tc : Thread nD τ).loc b)) :
    (Pipeline.arrBufs spec0 c Vv : sProp 𝕄) = iprop((((c.tc : Thread nD τ).loc main_arg0) ↦{fullShare} Vv main_arg0)
      ∗ (((c.tc : Thread nD τ).loc main_v0) ↦{fullShare} Vv main_v0) ∗ (((c.tc : Thread nD τ).loc main_v1) ↦{fullShare} Vv main_v1)
      ∗ (((c.tc : Thread nD τ).loc main_v2) ↦{fullShare} Vv main_v2)) := by
  unfold Pipeline.arrBufs
  exact bigSep_eq_bigSepL_of_eq [main_arg0, main_v0, main_v1, main_v2] (by decide) (by decide) _

/-- Entering the region: the buffers behind the arrays, whole at the entry contents, are the pipeline's arrays — the
    argument array's share halved twice for its four windows. -/
theorem arrays_of_bufs (c : Dev nD) (F : (w : Fin cfg0.W) → Buf (Elt F) ((cfg0.win w).arr.view.loc (c.tc : Thread nD τ)))
    (h0 : F 0 = V m c main_arg0) (h1 : F 1 = V m c main_arg0) (h2 : F 2 = V m c main_arg0) (h3 : F 3 = V m c main_arg0)
    (h4 : F 4 = V m c main_v0) (h5 : F 5 = V m c main_v1) (h6 : F 6 = V m c main_v2) :
    (Pipeline.arrBufs spec0 c (V m c) : sProp 𝕄) ⊢ (dats m 0 c).arrays F := by
  rw [arrays_chain, h0, h1, h2, h3, h4, h5, h6]
  rw [arrBufs_chain]
  iintro ⟨H0, H4, H5, H6⟩
  ihave H0 := (pointsTo_share (PosShare.mem_left_op_right fullShare)).1 $$ H0
  icases H0 with ⟨Hl, Hr⟩
  ihave Hl := (pointsTo_share (PosShare.mem_left_op_right fullShare.left)).1 $$ Hl
  ihave Hr := (pointsTo_share (PosShare.mem_left_op_right fullShare.right)).1 $$ Hr
  icases Hl with ⟨Hll, Hlr⟩
  icases Hr with ⟨Hrl, Hrr⟩
  isplitl [Hll]; · iexact Hll
  isplitl [Hlr]; · iexact Hlr
  isplitl [Hrl]; · iexact Hrl
  isplitl [Hrr]; · iexact Hrr
  isplitl [H4]; · iexact H4
  isplitl [H5]; · iexact H5
  iexact H6

/-! ## What the argument arrays hold when the region is entered -/

/-- The two host operations before the region write the transposed weights and the bias row only: `x` is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The reshape after the region -/

/-- The buffer contents the reshape runs from: as the region was entered, but for the region's result `A6`. -/
def Wt (c : Dev nD) (A6 : Buf (Elt F) ((c : Thread nD τ).loc main_v2)) : Valuation τ sig (Elt F) :=
  Function.update (V0 m c) (Proc.devRef .tc main_v2) A6

/-- The program's result from the region's: the [4, 5000, 21] array read as [20000, 21]. -/
def resultOf (c : Dev nD) (A6 : Buf (Elt F) ((c : Thread nD τ).loc main_v2)) : Buf (Elt F) ((c : Thread nD τ).loc main_v3) :=
  StableHlo.after (List.flatten [hostOps1]) (Wt m c A6) (Proc.devRef .tc main_v3)

theorem Wt_v2 (c : Dev nD) (A6 : Buf (Elt F) ((c : Thread nD τ).loc main_v2)) : Wt m c A6 (Proc.devRef .tc main_v2) = A6 := by
  unfold Wt; exact Function.update_self ..
theorem Wt_v3 (c : Dev nD) (A6 : Buf (Elt F) ((c : Thread nD τ).loc main_v2)) : Wt m c A6 (Proc.devRef .tc main_v3) = V m c main_v3 := by
  unfold Wt; exact Function.update_of_ne (StableHlo.devRef_ne_of_ne (by decide)) ..

/-- The reshape's two buffers. -/
abbrev tailSet : Finset (DevRef τ sig) := {Proc.devRef .tc main_v2, Proc.devRef .tc main_v3}

theorem held_tailSet (c : Dev nD) (Wv : Valuation τ sig (Elt F)) :
    (StableHlo.held (c.tc : Thread nD τ) tailSet Wv : sProp 𝕄)
      = iprop((((c.tc : Thread nD τ).loc main_v2) ↦{fullShare} Wv (Proc.devRef .tc main_v2)) ∗ (((c.tc : Thread nD τ).loc main_v3) ↦{fullShare} Wv (Proc.devRef .tc main_v3))) := by
  unfold StableHlo.held tailSet
  rw [bigSep_insert (by decide), bigSep_singleton]
  rfl

/-- The reshape writes the program's result and nothing else. -/
theorem after_tail_v2 (c : Dev nD) (A6 : Buf (Elt F) ((c : Thread nD τ).loc main_v2)) :
    StableHlo.after (List.flatten [hostOps1]) (Wt m c A6) (Proc.devRef .tc main_v2) = A6 := by
  rw [StableHlo.after_of_forall_not_mem (b := Proc.devRef .tc main_v2) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne (by decide))), Wt_v2]

/-- THE LINE AFTER THE REGION: holding the region's result and the program's result buffer, the reshape runs and
    leaves the first as it was and the second at `resultOf`. -/
theorem tail_step (𝒱₀ : Variants) (c : Dev nD) (A6 : Buf (Elt F) ((c : Thread nD τ).loc main_v2)) (K : PUnit → sProp 𝕄) :
    iprop(boundary (c.tc : Thread nD τ) ∗ (((c.tc : Thread nD τ).loc main_v2) ↦{fullShare} A6) ∗ (((c.tc : Thread nD τ).loc main_v3) ↦{fullShare} V m c main_v3)
        ∗ (iprop((((c.tc : Thread nD τ).loc main_v2) ↦{fullShare} A6) ∗ (((c.tc : Thread nD τ).loc main_v3) ↦{fullShare} resultOf m c A6)) -∗ K ⟨⟩))
      ⊢ wp frame (wpE (Pipeline.defs (pcfgs (F := F)) defs₀) (Variants.lift 𝒱₀) (c.tc : Thread nD τ) none) Set.univ
          (Pipeline.chain [StableHlo.seq hostOps1]) K := by
  have hsub : ∀ ops ∈ ([hostOps1] : List (List (HloOp τ sig (Elt F)))), ∀ op ∈ ops, op.bufs ⊆ tailSet := by
    intro ops hops op hop
    simp only [List.mem_cons, List.mem_nil_iff, or_false] at hops
    subst hops
    simp only [hostOps1, List.mem_cons, List.mem_nil_iff, or_false] at hop
    subst hop
    exact Finset.Subset.refl _
  have hfresh : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  iintro ⟨Hb, H2, H3, Hk⟩
  rw [show ([StableHlo.seq hostOps1] : List (Prog (TpuEff nD τ sig (Elt F) _ .tc) PUnit)) = ([hostOps1].map StableHlo.seq ++ []) from rfl]
  iapply (Pipeline.wp_seqs_then (pcfgs (F := F)) defs₀ 𝒱₀ c tailSet [] [hostOps1] hsub hfresh (Wt m c A6)) $$ [Hb H2 H3]
  · isplitl [Hb]; · iexact Hb
    rw [held_tailSet, Wt_v2, Wt_v3]
    isplitl [H2]; · iexact H2
    iexact H3
  iintro Hb
  rw [Pipeline.chain_nil, wp_pure, held_tailSet, after_tail_v2]
  imodintro
  iapply Hk
  icases Hb with ⟨-, H⟩
  iexact H

/-! ## The run -/

/-- What the buffers that bypass the region hold at the end: the weights and the bias as the region found them,
    the program's result buffer at the reshape of the region's result. -/
def Tv (c : Dev nD) : (b : Ref sig .tc) → Buf (Elt F) ((c.tc : Thread nD τ).loc b) :=
  Function.update (V m c) main_v3 (resultOf m c ((dats m 0 c).arrAt 6 cfg0.N))

theorem Tv_arg1 (c : Dev nD) : Tv m c main_arg1 = V m c main_arg1 := by unfold Tv; exact Function.update_of_ne (by decide) ..
theorem Tv_arg2 (c : Dev nD) : Tv m c main_arg2 = V m c main_arg2 := by unfold Tv; exact Function.update_of_ne (by decide) ..
theorem Tv_v3 (c : Dev nD) : Tv m c main_v3 = resultOf m c ((dats m 0 c).arrAt 6 cfg0.N) := by unfold Tv; exact Function.update_self ..

/-- THE RUN, given the body obligation: every weakly fair execution of the program terminates, nothing faulting; the
    program's result is the reshape of what the 25 write-backs left in the region's result array, and the three
    argument arrays are as launched. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v3) = resultOf m c ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c _ rfl rfl rfl rfl rfl rfl rfl)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Tv m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [arrays_chain, unscopedRest0_eq, unscopedRest0_eq, Tv_arg1, Tv_arg2, Tv_v3]
      iintro ⟨Hk, Hb, ⟨A0, A1, A2, A3, A4, A5, A6⟩, ⟨R1, R2, R3⟩⟩
      iapply (tail_step m Variants.none c _ Q')
      isplitl [Hb]; · iexact Hb
      isplitl [A6]; · iexact A6
      isplitl [R3]; · iexact R3
      iintro ⟨A6, R3⟩
      iapply Hk
      isplitl [A0 A1 A2 A3 A4 A5 A6]
      · isplitl [A0]; · iexact A0
        isplitl [A1]; · iexact A1
        isplitl [A2]; · iexact A2
        isplitl [A3]; · iexact A3
        isplitl [A4]; · iexact A4
        isplitl [A5]; · iexact A5
        iexact A6
      isplitl [R1]; · iexact R1
      isplitl [R2]; · iexact R2
      iexact R3)
    (QY := fun c s => ∀ b ∈ Pipeline.restRefs sig spec0, s.mem ((c.tc : Thread nD τ).loc b) = Tv m c b)
    (hY := fun c s' => by
      iintro ⟨-, HU, HSI⟩
      unfold Pipeline.unscopedRest
      imodintro
      iapply (pointsTo_read_all (Pipeline.restRefs sig spec0) (fun b => (c.tc : Thread nD τ).loc b) (Tv m c) s')
      isplitl [HU] <;> iassumption)
    (hQ := fun s h c => by
      obtain ⟨harr, -, hrest⟩ := h c
      refine ⟨?_, ?_, ?_, ?_⟩
      · exact (hrest main_v3 (Pipeline.mem_restRefs_of main_v3 (by decide) (by decide))).trans (Tv_v3 m c)
      · exact ((harr 0).trans ((dats m 0 c).arrAt_in 0 rfl cfg0.N)).trans (V_main_arg0 m c)
      · exact ((hrest main_arg1 (Pipeline.mem_restRefs_of main_arg1 (by decide) (by decide))).trans (Tv_arg1 m c)).trans (V_main_arg1 m c)
      · exact ((hrest main_arg2 (Pipeline.mem_restRefs_of main_arg2 (by decide) (by decide))).trans (Tv_arg2 m c)).trans (V_main_arg2 m c))

/-- The program's result is the region's result read through the reshape of [4, 5000, 21] as [20000, 21]. -/
theorem resultOf_eq (c : Dev nD) (A6 : Buf (Elt F) ((c : Thread nD τ).loc main_v2)) :
    (resultOf m c A6 : S20000x21.Idx → Elt F .f32) = shapeCast S20000x21 (A6 : S4x5000x21.Idx → Elt F .f32) shapeCasts_S4x5000x21_S20000x21 := by
  unfold resultOf
  simp only [hostOps1, List.flatten_cons, List.flatten_nil, List.append_nil]
  after_results
  rw [Wt_v2]
  rfl

end Cert.Kernel.Hand

end
-- ==== Proof.Spec.lean ====
/-
  The mathematics of the certificate: the classifier's logits as one function of the three argument arrays.

  `logits x W b` is, at row `r` and class `c`, the dot product over the 1024 features of row `r` of `x` with row `c` of
  `W`, plus the bias `b c`, on the extended reals. `slabs x wt b` is the same number laid out as the kernel writes
  it: the 20000 rows cut into four slabs of 5000, read at (slab, row within the slab, class), over the TRANSPOSED
  weights `wt` (features by classes) and the bias as a one-row matrix.
-/
import Idealize.ShloMosaic.PureOps.Ideal
import Idealize.ShloMosaic.Lib.ValueIdx

noncomputable section

namespace Cert.Logits

open Idealize.ShloMosaic Idealize.ShloMosaic.ValueIdx

/-- Row `r`, class `c`: the sum over the features `k` of `x r k · W c k`, plus `b c`. -/
def logits (x : (⟨2, ![20000, 1024]⟩ : Shape).Idx → EReal) (W : (⟨2, ![21, 1024]⟩ : Shape).Idx → EReal)
    (b : (⟨1, ![21]⟩ : Shape).Idx → EReal) : (⟨2, ![20000, 21]⟩ : Shape).Idx → EReal :=
  fun i => (∑ k : Fin 1024, x (ix2 (i 0) k) * W (ix2 (i 1) k)) + b (ix1 (i 1))

/-- Row `5000 s + r` of the array from slab `s` and row `r` within it. -/
def slabRow (s : Fin 4) (r : Fin 5000) : Fin 20000 := ⟨5000 * s.val + r.val, by have := s.isLt; have := r.isLt; omega⟩

/-- Slab `s`, row `r` of the slab, class `c`: the sum over the features `k` of `x (5000 s + r) k · wt k c`, plus
    the bias row's entry `c`. -/
def slabs (x : (⟨2, ![20000, 1024]⟩ : Shape).Idx → EReal) (wt : (⟨2, ![1024, 21]⟩ : Shape).Idx → EReal)
    (b : (⟨2, ![1, 21]⟩ : Shape).Idx → EReal) : (⟨3, ![4, 5000, 21]⟩ : Shape).Idx → EReal :=
  fun j => (∑ k : Fin 1024, x (ix2 (slabRow (j 0) (j 1)) k) * wt (ix2 k (j 2))) + b (ix2 (0 : Fin 1) (j 2))

end Cert.Logits

end
-- ==== Proof.Final.lean ====
/-
  From the output window's blocks to the whole array, on the extended reals.

  At grid point t the output window's block is rows 200 t … 200 t + 199 of each of the four slabs. What the body
  leaves there is, at (slab s, row r, class c), the dot product of row r of the s-th row block with column c of the
  transposed weights, plus the bias entry c; the s-th row block at point t is rows 5000 s + 200 t … of the
  argument array, the transposed weights and the bias row are held whole. So the block written back at point t is
  block t of the one function slabs of the three arrays, and since the 25 blocks tile the 4 × 5000 × 21 array (row r of
  a slab lies in the block of point r / 200), the array ends holding slabs.
-/
import proofs.«154572_g84507776516528_cont_sun_m_565_6_alg».proof.Proof.Data
import proofs.«154572_g84507776516528_cont_sun_m_565_6_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Idealize.ShloMosaic.ValueIdx
open Cert.KernelIdeal Cert.KernelIdeal.Gen

/-- What one store's payload is at an index: slab s of the output block, row r, class c, is the dot product of
    row r of the s-th row block with column c of the transposed weights, plus the bias row's entry c. -/
def PayAt : Prop := ∀ (x0 x1 x2 x3 : Vec Ideal S200x1024 .f32) (wt : Vec Ideal S1024x21 .f32) (b : Vec Ideal S1x21 .f32) (s : Fin 4) (r : Fin 200) (c : Fin 21),
    out6 (F := Ideal) x0 x1 x2 x3 wt b (ValueIdx.ix3 s r c)
      = (∑ k : Fin 1024, (match s with | ⟨0, _⟩ => x0 | ⟨1, _⟩ => x1 | ⟨2, _⟩ => x2 | ⟨3, _⟩ => x3) (ValueIdx.ix2 r k) * wt (ValueIdx.ix2 k c)) + b (ValueIdx.ix2 (0 : Fin 1) c)

/-- The block indices of the seven windows at grid point t: the s-th row-block window is at block row 25 s + t of
    the argument, the two resident windows at block (0, 0), the output window at block (0, t, 0). -/
theorem block_index : ∀ t : Fin cfg0.N,
    win0_0.index t (0 : Fin 2) = 0 + t.val ∧ win0_0.index t (1 : Fin 2) = 0
    ∧ win0_1.index t (0 : Fin 2) = 25 + t.val ∧ win0_1.index t (1 : Fin 2) = 0
    ∧ win0_2.index t (0 : Fin 2) = 50 + t.val ∧ win0_2.index t (1 : Fin 2) = 0
    ∧ win0_3.index t (0 : Fin 2) = 75 + t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = t.val ∧ win0_6.index t (2 : Fin 3) = 0 :=
  (by decide +kernel : ∀ t : Fin grid0.N, _)

/-- The mathematics at one point, over plain arrays. If the four row blocks are rows 5000 s + 200 t + r of the array
    X, the resident blocks are the arrays WT and B, and the array index i is the block index j moved 200 t rows down its
    slab, then what the body leaves at j is slabs X WT B at i. -/
theorem out6_eq_slabs (hpay : PayAt) (X : S20000x1024.Idx → EReal) (WT : S1024x21.Idx → EReal) (B : S1x21.Idx → EReal)
    (x0 x1 x2 x3 : Vec Ideal S200x1024 .f32) (wt : Vec Ideal S1024x21 .f32) (b : Vec Ideal S1x21 .f32) (tt : Nat)
    (h0 : ∀ (r : Fin 200) (k : Fin 1024) (R : Fin 20000), R.val = 5000 * 0 + 200 * tt + r.val → x0 (ix2 r k) = X (ix2 R k))
    (h1 : ∀ (r : Fin 200) (k : Fin 1024) (R : Fin 20000), R.val = 5000 * 1 + 200 * tt + r.val → x1 (ix2 r k) = X (ix2 R k))
    (h2 : ∀ (r : Fin 200) (k : Fin 1024) (R : Fin 20000), R.val = 5000 * 2 + 200 * tt + r.val → x2 (ix2 r k) = X (ix2 R k))
    (h3 : ∀ (r : Fin 200) (k : Fin 1024) (R : Fin 20000), R.val = 5000 * 3 + 200 * tt + r.val → x3 (ix2 r k) = X (ix2 R k))
    (hw : ∀ y : S1024x21.Idx, wt y = WT y) (hb : ∀ y : S1x21.Idx, b y = B y)
    (j : S4x200x21.Idx) (i : S4x5000x21.Idx)
    (hi0 : (i 0).val = (j 0).val) (hi1 : (i 1).val = 200 * tt + (j 1).val) (hi2 : (i 2).val = (j 2).val) :
    out6 (F := Ideal) x0 x1 x2 x3 wt b j = Cert.Logits.slabs X WT B i := by
  obtain ⟨s, r, cc, rfl⟩ : ∃ (s : Fin 4) (r : Fin 200) (cc : Fin 21), j = ix3 s r cc := ⟨j 0, j 1, j 2, eq_ix3 j⟩
  obtain ⟨si, ri, ci, rfl⟩ : ∃ (si : Fin 4) (ri : Fin 5000) (ci : Fin 21), i = ix3 si ri ci := ⟨i 0, i 1, i 2, eq_ix3 i⟩
  have hi0' : si.val = s.val := hi0
  have hi1' : ri.val = 200 * tt + r.val := hi1
  have hi2' : ci = cc := Fin.ext hi2
  subst hi2'
  rw [hpay]
  show _ = (∑ k : Fin 1024, X (ix2 (Cert.Logits.slabRow si ri) k) * WT (ix2 k ci)) + B (ix2 (0 : Fin 1) ci)
  rw [← hb]
  congr 1
  refine Finset.sum_congr rfl fun k _ => ?_
  rw [← hw]
  congr 1
  have hrow : (Cert.Logits.slabRow si ri).val = 5000 * si.val + ri.val := rfl
  match s, hi0' with
  | ⟨0, _⟩, hs => exact h0 r k _ (by rw [hrow]; have : si.val = 0 := hs; omega)
  | ⟨1, _⟩, hs => exact h1 r k _ (by rw [hrow]; have : si.val = 1 := hs; omega)
  | ⟨2, _⟩, hs => exact h2 r k _ (by rw [hrow]; have : si.val = 2 := hs; omega)
  | ⟨3, _⟩, hs => exact h3 r k _ (by rw [hrow]; have : si.val = 3 := hs; omega)

/-! ## The input blocks at a point, read off the arrays

The s-th row-block window's block at point t is rows 5000 s + 200 t … 5000 s + 200 t + 199 of the argument (block row
25 s + t of 200 rows each); the two resident windows' blocks are their whole arrays. -/

theorem iblk0_rows (m : (ℓ : Loc nD τ sig) → Buf (Elt Ideal) ℓ) (c : Dev nD) (t : Fin cfg0.N) (r : Fin 200) (k : Fin 1024) (R : Fin 20000)
    (hR : R.val = 5000 * 0 + 200 * t.val + r.val) :
    (iblk (F := Ideal) m c 0 t : Vec Ideal S200x1024 .f32) (ix2 r k) = (V m c main_arg0 : S20000x1024.Idx → EReal) (ix2 R k) := by
  obtain ⟨e00, e01, e10, e11, e20, e21, e30, e31, e40, e41, e50, e51, e60, e61, e62⟩ := block_index t
  show V m c main_arg0 (((cfg0.win 0).blk t).view.emb (ix2 r k)) = V m c main_arg0 (ix2 R k)
  refine congrArg _ ?_
  funext a; apply Fin.ext
  match a with
  | ⟨0, _⟩ => show win0_0.index t (0 : Fin 2) * 200 + 1 * r.val = R.val; omega
  | ⟨1, _⟩ => show win0_0.index t (1 : Fin 2) * 1024 + 1 * k.val = k.val; omega

theorem iblk1_rows (m : (ℓ : Loc nD τ sig) → Buf (Elt Ideal) ℓ) (c : Dev nD) (t : Fin cfg0.N) (r : Fin 200) (k : Fin 1024) (R : Fin 20000)
    (hR : R.val = 5000 * 1 + 200 * t.val + r.val) :
    (iblk (F := Ideal) m c 1 t : Vec Ideal S200x1024 .f32) (ix2 r k) = (V m c main_arg0 : S20000x1024.Idx → EReal) (ix2 R k) := by
  obtain ⟨e00, e01, e10, e11, e20, e21, e30, e31, e40, e41, e50, e51, e60, e61, e62⟩ := block_index t
  show V m c main_arg0 (((cfg0.win 1).blk t).view.emb (ix2 r k)) = V m c main_arg0 (ix2 R k)
  refine congrArg _ ?_
  funext a; apply Fin.ext
  match a with
  | ⟨0, _⟩ => show win0_1.index t (0 : Fin 2) * 200 + 1 * r.val = R.val; omega
  | ⟨1, _⟩ => show win0_1.index t (1 : Fin 2) * 1024 + 1 * k.val = k.val; omega

theorem iblk2_rows (m : (ℓ : Loc nD τ sig) → Buf (Elt Ideal) ℓ) (c : Dev nD) (t : Fin cfg0.N) (r : Fin 200) (k : Fin 1024) (R : Fin 20000)
    (hR : R.val = 5000 * 2 + 200 * t.val + r.val) :
    (iblk (F := Ideal) m c 2 t : Vec Ideal S200x1024 .f32) (ix2 r k) = (V m c main_arg0 : S20000x1024.Idx → EReal) (ix2 R k) := by
  obtain ⟨e00, e01, e10, e11, e20, e21, e30, e31, e40, e41, e50, e51, e60, e61, e62⟩ := block_index t
  show V m c main_arg0 (((cfg0.win 2).blk t).view.emb (ix2 r k)) = V m c main_arg0 (ix2 R k)
  refine congrArg _ ?_
  funext a; apply Fin.ext
  match a with
  | ⟨0, _⟩ => show win0_2.index t (0 : Fin 2) * 200 + 1 * r.val = R.val; omega
  | ⟨1, _⟩ => show win0_2.index t (1 : Fin 2) * 1024 + 1 * k.val = k.val; omega

theorem iblk3_rows (m : (ℓ : Loc nD τ sig) → Buf (Elt Ideal) ℓ) (c : Dev nD) (t : Fin cfg0.N) (r : Fin 200) (k : Fin 1024) (R : Fin 20000)
    (hR : R.val = 5000 * 3 + 200 * t.val + r.val) :
    (iblk (F := Ideal) m c 3 t : Vec Ideal S200x1024 .f32) (ix2 r k) = (V m c main_arg0 : S20000x1024.Idx → EReal) (ix2 R k) := by
  obtain ⟨e00, e01, e10, e11, e20, e21, e30, e31, e40, e41, e50, e51, e60, e61, e62⟩ := block_index t
  show V m c main_arg0 (((cfg0.win 3).blk t).view.emb (ix2 r k)) = V m c main_arg0 (ix2 R k)
  refine congrArg _ ?_
  funext a; apply Fin.ext
  match a with
  | ⟨0, _⟩ => show win0_3.index t (0 : Fin 2) * 200 + 1 * r.val = R.val; omega
  | ⟨1, _⟩ => show win0_3.index t (1 : Fin 2) * 1024 + 1 * k.val = k.val; omega

theorem iblk4_whole (m : (ℓ : Loc nD τ sig) → Buf (Elt Ideal) ℓ) (c : Dev nD) (t : Fin cfg0.N) (y : S1024x21.Idx) :
    (iblk (F := Ideal) m c 4 t : Vec Ideal S1024x21 .f32) y = (V m c main_v0 : S1024x21.Idx → EReal) y := by
  obtain ⟨e00, e01, e10, e11, e20, e21, e30, e31, e40, e41, e50, e51, e60, e61, e62⟩ := block_index t
  show V m c main_v0 (((cfg0.win 4).blk t).view.emb y) = V m c main_v0 y
  refine congrArg _ ?_
  funext a; apply Fin.ext
  match a with
  | ⟨0, _⟩ => show win0_4.index t (0 : Fin 2) * 1024 + 1 * (y 0).val = (y 0).val; omega
  | ⟨1, _⟩ => show win0_4.index t (1 : Fin 2) * 21 + 1 * (y 1).val = (y 1).val; omega

theorem iblk5_whole (m : (ℓ : Loc nD τ sig) → Buf (Elt Ideal) ℓ) (c : Dev nD) (t : Fin cfg0.N) (y : S1x21.Idx) :
    (iblk (F := Ideal) m c 5 t : Vec Ideal S1x21 .f32) y = (V m c main_v1 : S1x21.Idx → EReal) y := by
  obtain ⟨e00, e01, e10, e11, e20, e21, e30, e31, e40, e41, e50, e51, e60, e61, e62⟩ := block_index t
  show V m c main_v1 (((cfg0.win 5).blk t).view.emb y) = V m c main_v1 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 21 + 1 * (y 1).val = (y 1).val; omega

/-! ## What a point writes back -/

/-- The block written back at point t is block t of slabs of the three arrays as the region finds them. -/
theorem flushed6_eq (hpay : PayAt) (m : (ℓ : Loc nD τ sig) → Buf (Elt Ideal) ℓ) (c : Dev nD) (t : Fin cfg0.N) :
    (dats (F := Ideal) m 0 c).flushed 6 t = ((cfg0.win 6).blk t).view.read (Elt Ideal) (Cert.Logits.slabs (V m c main_arg0) (V m c main_v0) (V m c main_v1)) := by
  show (cfg0.win 6).cut (grid0.coords t) ((dats m 0 c).after 6 t) = _
  rw [after6]
  obtain ⟨e00, e01, e10, e11, e20, e21, e30, e31, e40, e41, e50, e51, e60, e61, e62⟩ := block_index t
  funext j
  exact out6_eq_slabs hpay (V m c main_arg0) (V m c main_v0) (V m c main_v1) (iblk m c 0 t) (iblk m c 1 t) (iblk m c 2 t) (iblk m c 3 t)
    (iblk m c 4 t) (iblk m c 5 t) t.val (iblk0_rows m c t) (iblk1_rows m c t) (iblk2_rows m c t) (iblk3_rows m c t)
    (iblk4_whole m c t) (iblk5_whole m c t) j (((cfg0.win 6).blk t).view.emb j)
    (by show win0_6.index t (0 : Fin 3) * 4 + 1 * (j 0).val = (j 0).val; omega)
    (by show win0_6.index t (1 : Fin 3) * 200 + 1 * (j 1).val = 200 * t.val + (j 1).val; omega)
    (by show win0_6.index t (2 : Fin 3) * 21 + 1 * (j 2).val = (j 2).val; omega)

/-! ## The blocks tile the array -/

/-- An index of the array is in point t's block iff each coordinate is in the block's range on its axis. -/
theorem mem_block6 (t : Fin cfg0.N) (i : S4x5000x21.Idx) :
    i ∈ ((cfg0.win 6).blk t).view.set ↔ ∀ a : Fin 3, win0_6.index t a * S4x200x21.size a ≤ (i a).val ∧ (i a).val < win0_6.index t a * S4x200x21.size a + S4x200x21.size a := by
  show i ∈ ((View.whole main_v2).slice (win0_6.rect t)).set ↔ _
  rw [View.set_slice_whole, Rect.mem_set_unit]
  exact Iff.rfl

/-- Every index of the array is in some point's block: row r of a slab is in the block of point r / 200. -/
theorem blocks_cover6 (i : S4x5000x21.Idx) :
    ∃ t : Fin cfg0.N, (cfg0.win 6).flush t = true ∧ i ∈ ((cfg0.win 6).blk t).view.set := by
  have hi0 : (i 0).val < 4 := (i 0).isLt
  have hi1 : (i 1).val < 5000 := (i 1).isLt
  have hi2 : (i 2).val < 21 := (i 2).isLt
  have hN : (i 1).val / 200 < cfg0.N := by rw [show cfg0.N = 25 from N_0]; omega
  obtain ⟨e00, e01, e10, e11, e20, e21, e30, e31, e40, e41, e50, e51, e60, e61, e62⟩ := block_index ⟨(i 1).val / 200, hN⟩
  have q1 : win0_6.index ⟨(i 1).val / 200, hN⟩ (1 : Fin 3) = (i 1).val / 200 := e61
  refine ⟨⟨(i 1).val / 200, hN⟩, flush0_6 _, ?_⟩
  rw [mem_block6]
  intro a
  match a with
  | ⟨0, _⟩ => show win0_6.index ⟨(i 1).val / 200, hN⟩ (0 : Fin 3) * 4 ≤ (i 0).val ∧ (i 0).val < win0_6.index ⟨(i 1).val / 200, hN⟩ (0 : Fin 3) * 4 + 4; omega
  | ⟨1, _⟩ => show win0_6.index ⟨(i 1).val / 200, hN⟩ (1 : Fin 3) * 200 ≤ (i 1).val ∧ (i 1).val < win0_6.index ⟨(i 1).val / 200, hN⟩ (1 : Fin 3) * 200 + 200; omega
  | ⟨2, _⟩ => show win0_6.index ⟨(i 1).val / 200, hN⟩ (2 : Fin 3) * 21 ≤ (i 2).val ∧ (i 2).val < win0_6.index ⟨(i 1).val / 200, hN⟩ (2 : Fin 3) * 21 + 21; omega

/-! ## The array after the run -/

/-- The output window's array ends holding slabs of the three arrays as the region finds them. -/
theorem final6 (hpay : PayAt) (m : (ℓ : Loc nD τ sig) → Buf (Elt Ideal) ℓ) (c : Dev nD) :
    (dats (F := Ideal) m 0 c).arrAt 6 cfg0.N = Cert.Logits.slabs (V m c main_arg0) (V m c main_v0) (V m c main_v1) :=
  (dats m 0 c).arrAt_eq_of_cover 6 (Cert.Logits.slabs (V m c main_arg0) (V m c main_v0) (V m c main_v1))
    (fun t _ => flushed6_eq hpay m c t) blocks_cover6

end Cert.KernelIdeal.Hand

end
-- ==== Proof.PayAt.lean ====
/-
  The output window's buffer after the body, read at one index.

  Each of the four stores holds, at (row r, class c) of its slab, the product of its 200-row block of `x` with the
  transposed weights, contracted over the 1024 features into a zero accumulator, plus the bias row broadcast down
  the 200 rows. The four stores are disjoint slabs along the leading axis, so the buffer at (slab s, r, c) is the
  s-th store's value at (r, c).
-/
import proofs.«154572_g84507776516528_cont_sun_m_565_6_alg».proof.Proof.Data
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

namespace Slabs

/-! ## The contraction's index maps: rows of the left operand, columns of the right, the feature on both -/

theorem mm_lhs_0 (i : S200x21.Idx) (q : dot_S200x1024_S1024x21_S200x21_1_0_0_1_n_n.contr.Idx) :
    (dot_S200x1024_S1024x21_S200x21_1_0_0_1_n_n.lhsIdx i q 0).val = (i 0).val := by
  unfold DotDims.lhsIdx
  rw [dif_neg (show ¬(0 : Fin S200x1024.rank) ∈ dot_S200x1024_S1024x21_S200x21_1_0_0_1_n_n.lhsBatch by decide), dif_pos (show (0 : Fin S200x1024.rank) ∈ dot_S200x1024_S1024x21_S200x21_1_0_0_1_n_n.lhsNonContracting by decide)]
  rfl
theorem mm_lhs_1 (i : S200x21.Idx) (q : dot_S200x1024_S1024x21_S200x21_1_0_0_1_n_n.contr.Idx) :
    (dot_S200x1024_S1024x21_S200x21_1_0_0_1_n_n.lhsIdx i q 1).val = (q ⟨0, by decide⟩).val :=
  dot_S200x1024_S1024x21_S200x21_1_0_0_1_n_n.lhsIdx_val_of_single rfl i q
theorem mm_rhs_0 (i : S200x21.Idx) (q : dot_S200x1024_S1024x21_S200x21_1_0_0_1_n_n.contr.Idx) :
    (dot_S200x1024_S1024x21_S200x21_1_0_0_1_n_n.rhsIdx i q 0).val = (q ⟨0, by decide⟩).val :=
  dot_S200x1024_S1024x21_S200x21_1_0_0_1_n_n.rhsIdx_val_of_single rfl i q
theorem mm_rhs_1 (i : S200x21.Idx) (q : dot_S200x1024_S1024x21_S200x21_1_0_0_1_n_n.contr.Idx) :
    (dot_S200x1024_S1024x21_S200x21_1_0_0_1_n_n.rhsIdx i q 1).val = (i 1).val := by
  unfold DotDims.rhsIdx
  rw [dif_neg (show ¬(1 : Fin S1024x21.rank) ∈ dot_S200x1024_S1024x21_S200x21_1_0_0_1_n_n.rhsBatch by decide), dif_pos (show (1 : Fin S1024x21.rank) ∈ dot_S200x1024_S1024x21_S200x21_1_0_0_1_n_n.rhsNonContracting by decide)]
  rfl

/-- The product into the zero accumulator, at (row r, class c): the sum over the features. -/
theorem mm_zero_apply (x : FVec Ideal S200x1024 .f32) (w : FVec Ideal S1024x21 .f32) (r : Fin 200) (c : Fin 21) :
    matmul dot_S200x1024_S1024x21_S200x21_1_0_0_1_n_n none x w (constant (F := Ideal) S200x21 .f32 0x00000000#32) (ix2 r c)
      = ∑ k : Fin 1024, x (ix2 r k) * w (ix2 k c) := by
  show FloatOps.matmul dot_S200x1024_S1024x21_S200x21_1_0_0_1_n_n none x w (constant (F := Ideal) S200x21 .f32 0x00000000#32) (ix2 r c) = _
  rw [Ideal.matmul_constant_zero_apply, ← Equiv.sum_comp (ValueIdx.contrEquiv1 dot_S200x1024_S1024x21_S200x21_1_0_0_1_n_n 1024 rfl rfl).symm]
  refine Finset.sum_congr rfl fun k _ => ?_
  have hk := ValueIdx.contrEquiv1_symm_val dot_S200x1024_S1024x21_S200x21_1_0_0_1_n_n 1024 rfl rfl k
  have el : dot_S200x1024_S1024x21_S200x21_1_0_0_1_n_n.lhsIdx (ix2 r c) ((ValueIdx.contrEquiv1 dot_S200x1024_S1024x21_S200x21_1_0_0_1_n_n 1024 rfl rfl).symm k) = ix2 r k := funext fun a => Fin.ext (by
    match a with
    | ⟨0, _⟩ => exact mm_lhs_0 _ _
    | ⟨1, _⟩ => exact (mm_lhs_1 _ _).trans hk)
  have er : dot_S200x1024_S1024x21_S200x21_1_0_0_1_n_n.rhsIdx (ix2 r c) ((ValueIdx.contrEquiv1 dot_S200x1024_S1024x21_S200x21_1_0_0_1_n_n 1024 rfl rfl).symm k) = ix2 k c := funext fun a => Fin.ext (by
    match a with
    | ⟨0, _⟩ => exact (mm_rhs_0 _ _).trans hk
    | ⟨1, _⟩ => exact mm_rhs_1 _ _)
  rw [el, er]

/-! ## One store's value at an index -/

/-- The first slab's store at (row r, class c): the row's product with the transposed weights plus the bias. -/
theorem pay3_apply (v0 : Vec Ideal S200x1024 .f32) (v1 : Vec Ideal S1024x21 .f32) (v4 : Vec Ideal S1x21 .f32) (r : Fin 200) (c : Fin 21) :
    k0_pay3 (F := Ideal) v0 v1 v4 (ix3 (0 : Fin 1) r c) = (∑ k : Fin 1024, v0 (ix2 r k) * v1 (ix2 k c)) + v4 (ix2 (0 : Fin 1) c) := by
  unfold Gen.k0_pay3
  rw [shapeCast_ab_1ab_apply, addf_apply, broadcastTo_1b_ab_apply, shapeCast_self, shapeCast_self, mm_zero_apply]

/-- The other three stores are the same function of their three operands. -/
theorem pay4_eq : @k0_pay4 Ideal _ = @k0_pay3 Ideal _ := rfl
theorem pay2_eq : @k0_pay2 Ideal _ = @k0_pay3 Ideal _ := rfl
theorem pay15_eq : (fun (a : Vec Ideal S200x1024 .f32) (w : Vec Ideal S1024x21 .f32) (b : Vec Ideal S1x21 .f32) => k0_pay1 (F := Ideal) (k0_pay5 (F := Ideal) a w b))
    = @k0_pay3 Ideal _ := rfl

theorem pay4_apply (v0 : Vec Ideal S200x1024 .f32) (v1 : Vec Ideal S1024x21 .f32) (v4 : Vec Ideal S1x21 .f32) (r : Fin 200) (c : Fin 21) :
    k0_pay4 (F := Ideal) v0 v1 v4 (ix3 (0 : Fin 1) r c) = (∑ k : Fin 1024, v0 (ix2 r k) * v1 (ix2 k c)) + v4 (ix2 (0 : Fin 1) c) := by
  rw [pay4_eq]; exact pay3_apply v0 v1 v4 r c
theorem pay2_apply (v0 : Vec Ideal S200x1024 .f32) (v1 : Vec Ideal S1024x21 .f32) (v4 : Vec Ideal S1x21 .f32) (r : Fin 200) (c : Fin 21) :
    k0_pay2 (F := Ideal) v0 v1 v4 (ix3 (0 : Fin 1) r c) = (∑ k : Fin 1024, v0 (ix2 r k) * v1 (ix2 k c)) + v4 (ix2 (0 : Fin 1) c) := by
  rw [pay2_eq]; exact pay3_apply v0 v1 v4 r c
theorem pay15_apply (v0 : Vec Ideal S200x1024 .f32) (v1 : Vec Ideal S1024x21 .f32) (v4 : Vec Ideal S1x21 .f32) (r : Fin 200) (c : Fin 21) :
    k0_pay1 (F := Ideal) (k0_pay5 (F := Ideal) v0 v1 v4) (ix3 (0 : Fin 1) r c) = (∑ k : Fin 1024, v0 (ix2 r k) * v1 (ix2 k c)) + v4 (ix2 (0 : Fin 1) c) :=
  (congrFun (congrFun (congrFun (congrFun pay15_eq v0) v1) v4) (ix3 (0 : Fin 1) r c)).trans (pay3_apply v0 v1 v4 r c)

/-! ## The four slabs of the buffer -/

theorem hz2 : (![0, 0] : Fin 2 → Nat) = fun _ => 0 := funext fun a => by match a with | ⟨0, _⟩ => rfl | ⟨1, _⟩ => rfl

/-- Slab `s`'s rectangle places (0, r, c) at (s, r, c). -/
theorem rO0_emb (r : Fin 200) (c : Fin 21) : ix3 (⟨0, by omega⟩ : Fin 4) r c = rO0.emb (ix3 (0 : Fin 1) r c) :=
  funext fun a => Fin.ext (by match a with
    | ⟨0, _⟩ => rfl
    | ⟨1, _⟩ => show r.val = 0 + 1 * r.val; omega
    | ⟨2, _⟩ => show c.val = 0 + 1 * c.val; omega)
theorem rO1_emb (r : Fin 200) (c : Fin 21) : ix3 (⟨1, by omega⟩ : Fin 4) r c = rO1.emb (ix3 (0 : Fin 1) r c) :=
  funext fun a => Fin.ext (by match a with
    | ⟨0, _⟩ => rfl
    | ⟨1, _⟩ => show r.val = 0 + 1 * r.val; omega
    | ⟨2, _⟩ => show c.val = 0 + 1 * c.val; omega)
theorem rO2_emb (r : Fin 200) (c : Fin 21) : ix3 (⟨2, by omega⟩ : Fin 4) r c = rO2.emb (ix3 (0 : Fin 1) r c) :=
  funext fun a => Fin.ext (by match a with
    | ⟨0, _⟩ => rfl
    | ⟨1, _⟩ => show r.val = 0 + 1 * r.val; omega
    | ⟨2, _⟩ => show c.val = 0 + 1 * c.val; omega)
theorem rO3_emb (r : Fin 200) (c : Fin 21) : ix3 (⟨3, by omega⟩ : Fin 4) r c = rO3.emb (ix3 (0 : Fin 1) r c) :=
  funext fun a => Fin.ext (by match a with
    | ⟨0, _⟩ => rfl
    | ⟨1, _⟩ => show r.val = 0 + 1 * r.val; omega
    | ⟨2, _⟩ => show c.val = 0 + 1 * c.val; omega)

/-- An index of a lower slab is outside a higher slab's rectangle: its leading coordinate is too small. -/
theorem not_mem_rO3 (s : Fin 4) (hs : s.val < 3) (r : Fin 200) (c : Fin 21) : ix3 s r c ∉ rO3.set := by
  rw [Rect.mem_set_unit]
  intro h
  have h0 : 3 ≤ s.val := (h 0).1
  omega
theorem not_mem_rO2 (s : Fin 4) (hs : s.val < 2) (r : Fin 200) (c : Fin 21) : ix3 s r c ∉ rO2.set := by
  rw [Rect.mem_set_unit]
  intro h
  have h0 : 2 ≤ s.val := (h 0).1
  omega
theorem not_mem_rO1 (s : Fin 4) (hs : s.val < 1) (r : Fin 200) (c : Fin 21) : ix3 s r c ∉ rO1.set := by
  rw [Rect.mem_set_unit]
  intro h
  have h0 : 1 ≤ s.val := (h 0).1
  omega

/-- A slab's block as the stores carry it. -/
abbrev Slab : Type := S1x200x21.Idx → Elt Ideal .f32
abbrev SlabPiece : Type := View.Piece (Elt Ideal) S4x200x21 .f32

/-- Four stores, one per slab, the last store first: slab `s` of the result is the `s`-th store's block. -/
theorem canon4_at3 (w3 w2 w1 w0 : Slab) (r : Fin 200) (c : Fin 21) :
    View.canon [(⟨rO3, w3⟩ : SlabPiece), ⟨rO2, w2⟩, ⟨rO1, w1⟩, ⟨rO0, w0⟩] (ix3 (⟨3, by omega⟩ : Fin 4) r c) = w3 (ix3 (0 : Fin 1) r c) := by
  rw [rO3_emb]
  exact View.canon_cons_emb rO3 w3 [⟨rO2, w2⟩, ⟨rO1, w1⟩, ⟨rO0, w0⟩] (ix3 (0 : Fin 1) r c)
theorem canon4_at2 (w3 w2 w1 w0 : Slab) (r : Fin 200) (c : Fin 21) :
    View.canon [(⟨rO3, w3⟩ : SlabPiece), ⟨rO2, w2⟩, ⟨rO1, w1⟩, ⟨rO0, w0⟩] (ix3 (⟨2, by omega⟩ : Fin 4) r c) = w2 (ix3 (0 : Fin 1) r c) := by
  rw [View.canon_cons_of_not_mem (⟨rO3, w3⟩ : SlabPiece) [⟨rO2, w2⟩, ⟨rO1, w1⟩, ⟨rO0, w0⟩] (not_mem_rO3 ⟨2, by omega⟩ (by decide) r c), rO2_emb]
  exact View.canon_cons_emb rO2 w2 [⟨rO1, w1⟩, ⟨rO0, w0⟩] (ix3 (0 : Fin 1) r c)
theorem canon4_at1 (w3 w2 w1 w0 : Slab) (r : Fin 200) (c : Fin 21) :
    View.canon [(⟨rO3, w3⟩ : SlabPiece), ⟨rO2, w2⟩, ⟨rO1, w1⟩, ⟨rO0, w0⟩] (ix3 (⟨1, by omega⟩ : Fin 4) r c) = w1 (ix3 (0 : Fin 1) r c) := by
  rw [View.canon_cons_of_not_mem (⟨rO3, w3⟩ : SlabPiece) [⟨rO2, w2⟩, ⟨rO1, w1⟩, ⟨rO0, w0⟩] (not_mem_rO3 ⟨1, by omega⟩ (by decide) r c),
    View.canon_cons_of_not_mem (⟨rO2, w2⟩ : SlabPiece) [⟨rO1, w1⟩, ⟨rO0, w0⟩] (not_mem_rO2 ⟨1, by omega⟩ (by decide) r c), rO1_emb]
  exact View.canon_cons_emb rO1 w1 [⟨rO0, w0⟩] (ix3 (0 : Fin 1) r c)
theorem canon4_at0 (w3 w2 w1 w0 : Slab) (r : Fin 200) (c : Fin 21) :
    View.canon [(⟨rO3, w3⟩ : SlabPiece), ⟨rO2, w2⟩, ⟨rO1, w1⟩, ⟨rO0, w0⟩] (ix3 (⟨0, by omega⟩ : Fin 4) r c) = w0 (ix3 (0 : Fin 1) r c) := by
  rw [View.canon_cons_of_not_mem (⟨rO3, w3⟩ : SlabPiece) [⟨rO2, w2⟩, ⟨rO1, w1⟩, ⟨rO0, w0⟩] (not_mem_rO3 ⟨0, by omega⟩ (by decide) r c),
    View.canon_cons_of_not_mem (⟨rO2, w2⟩ : SlabPiece) [⟨rO1, w1⟩, ⟨rO0, w0⟩] (not_mem_rO2 ⟨0, by omega⟩ (by decide) r c),
    View.canon_cons_of_not_mem (⟨rO1, w1⟩ : SlabPiece) [⟨rO0, w0⟩] (not_mem_rO1 ⟨0, by omega⟩ (by decide) r c), rO0_emb]
  exact View.canon_cons_emb rO0 w0 [] (ix3 (0 : Fin 1) r c)

/-- The body's loads take each input buffer whole. -/
theorem ld_rX (x : Vec Ideal S200x1024 .f32) : View.ld x rX = x := View.ld_unit_zero (S := S200x1024) hz2 _ x
theorem ld_rW (w : Vec Ideal S1024x21 .f32) : View.ld w rW = w := View.ld_unit_zero (S := S1024x21) hz2 _ w
theorem ld_rB (b : Vec Ideal S1x21 .f32) : View.ld b rB = b := View.ld_unit_zero (S := S1x21) hz2 _ b

/-- The buffer written out over the whole input blocks. -/
theorem out6_eq (x0 x1 x2 x3 : Vec Ideal S200x1024 .f32) (wt : Vec Ideal S1024x21 .f32) (b : Vec Ideal S1x21 .f32) :
    out6 (F := Ideal) x0 x1 x2 x3 wt b
      = View.canon [(⟨rO3, k0_pay2 (F := Ideal) x3 wt b⟩ : SlabPiece), ⟨rO2, k0_pay1 (F := Ideal) (k0_pay5 (F := Ideal) x2 wt b)⟩,
          ⟨rO1, k0_pay4 (F := Ideal) x1 wt b⟩, ⟨rO0, k0_pay3 (F := Ideal) x0 wt b⟩] := by
  unfold out6
  rw [ld_rX x0, ld_rX x1, ld_rX x2, ld_rX x3, ld_rW wt, ld_rB b]

end Slabs

open Slabs in
/-- THE BUFFER AT (slab s, row r, class c): the s-th row block's row r against the transposed weights, plus the bias. -/
theorem out6_apply (x0 x1 x2 x3 : Vec Ideal S200x1024 .f32) (wt : Vec Ideal S1024x21 .f32) (b : Vec Ideal S1x21 .f32) (s : Fin 4) (r : Fin 200) (c : Fin 21) :
    out6 (F := Ideal) x0 x1 x2 x3 wt b (ValueIdx.ix3 s r c)
      = (∑ k : Fin 1024, (match s with | ⟨0, _⟩ => x0 | ⟨1, _⟩ => x1 | ⟨2, _⟩ => x2 | ⟨3, _⟩ => x3) (ValueIdx.ix2 r k) * wt (ValueIdx.ix2 k c)) + b (ValueIdx.ix2 (0 : Fin 1) c) := by
  rw [out6_eq]
  match s with
  | ⟨0, _⟩ => exact (canon4_at0 _ _ _ _ r c).trans (pay3_apply x0 wt b r c)
  | ⟨1, _⟩ => exact (canon4_at1 _ _ _ _ r c).trans (pay4_apply x1 wt b r c)
  | ⟨2, _⟩ => exact (canon4_at2 _ _ _ _ r c).trans (pay15_apply x2 wt b r c)
  | ⟨3, _⟩ => exact (canon4_at3 _ _ _ _ r c).trans (pay2_apply x3 wt b r c)

end Cert.KernelIdeal.Hand

end
-- ==== Proof.Around.lean ====
/-
  The values around the region, and the closing equation of the certificate.

  Before the region the host writes the transposed weights and the bias as a one-row matrix; the region's resident
  windows read those two arrays. After the region the host reads the four stacked slabs back as one array of 20000
  rows: row `R` of that array is row `R % 5000` of slab `R / 5000`. Read through these three layout changes, the
  slab-wise logits over the transposed weights and the bias row are the logits of the three arguments.
-/
import proofs.«154572_g84507776516528_cont_sun_m_565_6_alg».proof.Proof.Data
import proofs.«154572_g84507776516528_cont_sun_m_565_6_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

section Entry

variable {F : FTy → Type} [FloatOps F]
variable (m : (ℓ : Loc nD τ sig) → Buf (Elt F) ℓ)

/-- The region finds in the fifth window's array the weights transposed. -/
theorem V_main_v0 (c : Dev nD) : (V m c main_v0 : S1024x21.Idx → Elt F .f32)
    = transpose S1024x21 [1, 0] (m ((c : Thread nD τ).loc main_arg1)) transposes_S21x1024_S1024x21_1_0 := by
  show StableHlo.after hostOps0 (fun b => m (c, b)) (Proc.devRef .tc main_v0) = _
  after_results

/-- The region finds in the sixth window's array the bias as a one-row matrix. -/
theorem V_main_v1 (c : Dev nD) : (V m c main_v1 : S1x21.Idx → Elt F .f32)
    = shapeCast S1x21 (m ((c : Thread nD τ).loc main_arg2)) shapeCasts_S21_S1x21 := by
  show StableHlo.after hostOps0 (fun b => m (c, b)) (Proc.devRef .tc main_v1) = _
  after_results
  rfl

end Entry

namespace Slabs

/-- Row `R` of the flat array is row `R % 5000` of slab `R / 5000`. -/
theorem slabRow_divMod (R : Fin 20000) (hs : R.val / 5000 < 4) (hr : R.val % 5000 < 5000) :
    Cert.Logits.slabRow ⟨R.val / 5000, hs⟩ ⟨R.val % 5000, hr⟩ = R :=
  Fin.ext (by show 5000 * (R.val / 5000) + R.val % 5000 = R.val; exact Nat.div_add_mod _ _)

end Slabs

open Slabs in
/-- THE CLOSING EQUATION: the four slabs of logits over the transposed weights and the bias row, read back as one
    array of 20000 rows, are the logits of the three arguments. -/
theorem value_eq (x : Vec Ideal S20000x1024 .f32) (W : Vec Ideal S21x1024 .f32) (b : Vec Ideal S21 .f32) :
    shapeCast S20000x21 (Cert.Logits.slabs x (transpose S1024x21 [1, 0] W transposes_S21x1024_S1024x21_1_0) (shapeCast S1x21 b shapeCasts_S21_S1x21)) shapeCasts_S4x5000x21_S20000x21
      = Cert.Logits.logits x W b := by
  funext i
  obtain ⟨R, c, rfl⟩ : ∃ (R : Fin 20000) (c : Fin 21), i = ix2 R c := ⟨i 0, i 1, eq_ix2 i⟩
  have hs : R.val / 5000 < 4 := by have := R.isLt; omega
  have hr : R.val % 5000 < 5000 := Nat.mod_lt _ (by decide)
  rw [shapeCast_apply _ shapeCasts_S4x5000x21_S20000x21 (ix2 R c) (ix3 (⟨R.val / 5000, hs⟩ : Fin 4) (⟨R.val % 5000, hr⟩ : Fin 5000) c) (by
    rw [Shape.rowMajor_val_three, Shape.rowMajor_val_two]
    show ((R.val / 5000) * 5000 + R.val % 5000) * 21 + c.val = R.val * 21 + c.val
    have := Nat.div_add_mod R.val 5000
    omega)]
  show (∑ k : Fin 1024, x (ix2 (Cert.Logits.slabRow ⟨R.val / 5000, hs⟩ ⟨R.val % 5000, hr⟩) k)
        * transpose S1024x21 [1, 0] W transposes_S21x1024_S1024x21_1_0 (ix2 k c))
      + shapeCast S1x21 b shapeCasts_S21_S1x21 (ix2 (0 : Fin 1) c)
    = (∑ k : Fin 1024, x (ix2 R k) * W (ix2 c k)) + b (ix1 c)
  rw [slabRow_divMod R hs hr, shapeCast_a_1a_apply]
  refine congrArg (· + b (ix1 c)) (Finset.sum_congr rfl fun k _ => ?_)
  rw [transpose_ix2_apply]

end Cert.KernelIdeal.Hand

end
-- ==== Proof.RefSide.lean ====
/-
  The reference program computes the classifier's logits.

  The reference transposes the weights, contracts the 1024 features of each row of `x` against them, lifts the bias
  to a one-row matrix and then to all 20000 rows, and adds. Read at row `r` and class `c` that is the sum over the
  features `k` of `x r k · W c k` plus `b c`: the specification's `logits`, index by index.
-/
import proofs.«154572_g84507776516528_cont_sun_m_565_6_alg».proof.Proof.Gen.ReferenceIdeal.Read
import proofs.«154572_g84507776516528_cont_sun_m_565_6_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The left operand of the contraction is read at (row, feature). -/
theorem lidx_eq (i : S20000x21.Idx) (k : Fin 1024) : lidx_main_v1 i k = ix2 (i 0) k :=
  funext fun a => Fin.ext (by match a with | ⟨0, _⟩ => rfl | ⟨1, _⟩ => rfl)

/-- The transposed weights at (feature, class) are the weights at (class, feature). -/
theorem ridx_eq (i : S20000x21.Idx) (k : Fin 1024) : idx_main_v0 (ridx_main_v1 i k) = ix2 (i 1) k :=
  funext fun a => Fin.ext (by match a with | ⟨0, _⟩ => rfl | ⟨1, _⟩ => rfl)

/-- The bias lifted twice is read at the class. -/
theorem bidx_eq (i : S20000x21.Idx) : idx_main_v2 (idx_main_v3 i) = ix1 (i 1) :=
  funext fun a => Fin.ext (by match a with | ⟨0, _⟩ => rfl)

/-- The reference's result is the logits of its three arguments. -/
theorem ref_eq (x0 : (⟨Cert.ReferenceIdeal.S20000x1024, .f32⟩ : BufTy).Contents (Elt Ideal))
    (x1 : (⟨Cert.ReferenceIdeal.S21x1024, .f32⟩ : BufTy).Contents (Elt Ideal))
    (x2 : (⟨Cert.ReferenceIdeal.S21, .f32⟩ : BufTy).Contents (Elt Ideal)) :
    Cert.ReferenceIdeal.Read.val_main_v4 (F := Ideal) x0 x1 x2 = Cert.Logits.logits x0 x1 x2 := by
  funext i
  rw [val_main_v4_apply, val_main_v1_apply, val_main_v3_apply, val_main_v2_apply]
  simp only [val_main_v0_apply, lidx_eq, ridx_eq, bidx_eq, Ideal.addf_def]
  rfl

end Cert.ReferenceIdeal.RefValue

end
-- ==== Proof.lean ====
/-
  The classifier's logits, `x · Wᵀ + b` over x : [20000, 1024], W : [21, 1024], b : [21].

  The kernel cuts the 20000 rows into four slabs of 5000 and walks the slabs together, 200 rows of each per grid
  point, so that four streams of `x` are read at once; at a point it multiplies each 200-row block by the transposed
  weights and adds the bias row, and stores the four products as the four slabs of a [4, 5000, 21] array, which
  is read back as [20000, 21]. Row `5000 s + 200 t + r` of the result is therefore row `r` of slab `s`'s block at
  point `t`, and its entry `c` is the dot product of that row of `x` with row `c` of `W`, plus `b c` — which is what
  the reference computes with one matrix product over the whole array. The two sides are the same sum of the
  same products on the extended reals, index by index: no law beyond unfolding both is needed, so the
  precondition (finite inputs) is never opened.

  Four windows of the region read ONE array, the argument `x`: the run deals the array's share among them in
  quarters when the region is entered and none of them writes it.
-/
import proofs.«154572_g84507776516528_cont_sun_m_565_6_alg».proof.Defs
import proofs.«154572_g84507776516528_cont_sun_m_565_6_alg».proof.Proof.Gen.Kernel
import proofs.«154572_g84507776516528_cont_sun_m_565_6_alg».proof.Proof.Gen.KernelIdeal
import proofs.«154572_g84507776516528_cont_sun_m_565_6_alg».proof.Proof.Gen.ReferenceIdeal
import proofs.«154572_g84507776516528_cont_sun_m_565_6_alg».proof.Proof.Gen.Pre_finite_inputs
import proofs.«154572_g84507776516528_cont_sun_m_565_6_alg».proof.Proof.Gen.ReferenceIdeal.Read
import proofs.«154572_g84507776516528_cont_sun_m_565_6_alg».proof.Proof.Body
import proofs.«154572_g84507776516528_cont_sun_m_565_6_alg».proof.Proof.BodyK
import proofs.«154572_g84507776516528_cont_sun_m_565_6_alg».proof.Proof.Launch
import proofs.«154572_g84507776516528_cont_sun_m_565_6_alg».proof.Proof.LaunchK
import proofs.«154572_g84507776516528_cont_sun_m_565_6_alg».proof.Proof.Final
import proofs.«154572_g84507776516528_cont_sun_m_565_6_alg».proof.Proof.PayAt
import proofs.«154572_g84507776516528_cont_sun_m_565_6_alg».proof.Proof.Around
import proofs.«154572_g84507776516528_cont_sun_m_565_6_alg».proof.Proof.RefSide

noncomputable section

namespace Cert.Proof

open Idealize.ShloMosaic Idealize.ShloMosaic.TcCoe Idealize.SL.Sem

/-- The kernel as printed, at the word level: the same run, its result dropped. -/
theorem frame_k : Cert.frame_Kernel := fun m ρ _ =>
  (θ_run Cert.Kernel.defs _ _).mono (fun _ h c => (h c).2)
    (Cert.Kernel.Hand.run_main (F := Bits) m ρ (Cert.Kernel.Hand.body_obligation m))

/-- The idealized kernel runs to the end, nothing faulting, its arguments unchanged: the run, its result dropped. -/
theorem frame_ki : Cert.frame_KernelIdeal := fun m ρ _ =>
  (θ_run Cert.KernelIdeal.defs _ _).mono (fun _ h c => (h c).2)
    (Cert.KernelIdeal.Hand.run_main (F := Ideal) m ρ (Cert.KernelIdeal.Hand.body_obligation m))

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals the kernel's result and the reference's are both `logits` of the three argument arrays. -/
theorem algebraic : Cert.algebraic_KernelIdeal_ReferenceIdeal := by
  intro m ρ m' ρ' _ hagree
  refine ⟨fun c => Cert.Logits.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Hand.run_main (F := Ideal) m ρ (Cert.KernelIdeal.Hand.body_obligation m))
    rw [Cert.KernelIdeal.Hand.resultOf_eq, Cert.KernelIdeal.Hand.final6 Cert.KernelIdeal.Hand.out6_apply,
      Cert.KernelIdeal.Hand.V_main_arg0, Cert.KernelIdeal.Hand.V_main_v0, Cert.KernelIdeal.Hand.V_main_v1]
    exact Cert.KernelIdeal.Hand.value_eq _ _ _
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v4_eq, Cert.ReferenceIdeal.RefValue.ref_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
